-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_arg5 : FVec F S64x64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : FVec F S128x64 .f32) (main_arg2 : FVec F S64 .f32) (main_arg3 : FVec F S64x64 .f32) (main_arg4 : FVec F S64 .f32) (main_arg5 : FVec F S64x64 .f32) (main_arg6 : FVec F S64 .f32) (main_arg7 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 136
  | .vmem => 36
  | .smem => 0
  | _ => 0

abbrev hbmTy0_0 (i : Nat) : BufTy := match i % 128 with
  | 0 => ⟨S100000x128, .f32⟩
  | 1 => ⟨S128x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S2x1600000, .i32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S100000, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S_, .f32⟩
  | 23 => ⟨S1600000, .f32⟩
  | 24 => ⟨S100000, .f32⟩
  | 25 => ⟨S_, .f32⟩
  | 26 => ⟨S100000, .f32⟩
  | 27 => ⟨S100000, .f32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S1600000, .f32⟩
  | 48 => ⟨S100000, .f32⟩
  | 49 => ⟨S100000x64, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x64, .f32⟩
  | 59 => ⟨S1600000x1, .f32⟩
  | 60 => ⟨S1600000x64, .f32⟩
  | 61 => ⟨S1600000x64, .f32⟩
  | 62 => ⟨S_, .f32⟩
  | 63 => ⟨S100000x64, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S100000x64, .f32⟩
  | 73 => ⟨S100000x1, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x64, .f32⟩
  | 88 => ⟨S1600000x1, .f32⟩
  | 89 => ⟨S1600000x64, .f32⟩
  | 90 => ⟨S1600000x64, .f32⟩
  | 91 => ⟨S_, .f32⟩
  | 92 => ⟨S100000x64, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S100000x64, .f32⟩
  | 102 => ⟨S100000x1, .f32⟩
  | 103 => ⟨S100000x64, .f32⟩
  | 104 => ⟨S100000x64, .f32⟩
  | 105 => ⟨S1x64, .f32⟩
  | 106 => ⟨S100000x64, .f32⟩
  | 107 => ⟨S100000x64, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x64, .f32⟩
  | 117 => ⟨S1600000x1, .f32⟩
  | 118 => ⟨S1600000x64, .f32⟩
  | 119 => ⟨S1600000x64, .f32⟩
  | 120 => ⟨S_, .f32⟩
  | 121 => ⟨S100000x64, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x128, .f32⟩

abbrev hbmTy0_1 (i : Nat) : BufTy := match i % 128 with
  | 0 => ⟨S1600000, .i32⟩
  | 1 => ⟨S1600000x1, .i32⟩
  | 2 => ⟨S100000x64, .f32⟩
  | 3 => ⟨S100000x1, .f32⟩
  | 4 => ⟨S100000x64, .f32⟩
  | 5 => ⟨S100000x64, .f32⟩
  | 6 => ⟨S1x64, .f32⟩
  | 7 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_c_10 : Ref sig .tc := ⟨.hbm, 64, rfl⟩
abbrev main_v44 : Ref sig .tc := ⟨.hbm, 65, rfl⟩
abbrev main_v45 : Ref sig .tc := ⟨.hbm, 66, rfl⟩
abbrev main_c_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_14 : Ref sig .tc := ⟨.hbm, 91, rfl⟩
abbrev main_v67 : Ref sig .tc := ⟨.hbm, 92, rfl⟩
abbrev main_c_15 : Ref sig .tc := ⟨.hbm, 93, rfl⟩
abbrev main_v68 : Ref sig .tc := ⟨.hbm, 94, rfl⟩
abbrev main_v69 : Ref sig .tc := ⟨.hbm, 95, rfl⟩
abbrev main_c_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_17 : Ref sig .tc := ⟨.hbm, 108, rfl⟩
abbrev main_v81 : Ref sig .tc := ⟨.hbm, 109, rfl⟩
abbrev main_v82 : Ref sig .tc := ⟨.hbm, 110, rfl⟩
abbrev main_c_18 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_19 : Ref sig .tc := ⟨.hbm, 120, rfl⟩
abbrev main_v91 : Ref sig .tc := ⟨.hbm, 121, rfl⟩
abbrev main_c_20 : Ref sig .tc := ⟨.hbm, 122, rfl⟩
abbrev main_v92 : Ref sig .tc := ⟨.hbm, 123, rfl⟩
abbrev main_v93 : Ref sig .tc := ⟨.hbm, 124, rfl⟩
abbrev main_c_21 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v77) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v78) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v79) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v80) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v101) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v98) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v102) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v103) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 148
  | .vmem => 0
  | .smem => 0
  | _ => 0

abbrev hbmTy0_0 (i : Nat) : BufTy := match i % 128 with
  | 0 => ⟨S100000x128, .f32⟩
  | 1 => ⟨S128x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S2x1600000, .i32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S100000, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S_, .f32⟩
  | 23 => ⟨S1600000, .f32⟩
  | 24 => ⟨S100000, .f32⟩
  | 25 => ⟨S_, .f32⟩
  | 26 => ⟨S100000, .f32⟩
  | 27 => ⟨S100000, .f32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S1600000, .f32⟩
  | 48 => ⟨S100000, .f32⟩
  | 49 => ⟨S100000x64, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x64, .f32⟩
  | 59 => ⟨S1600000x1, .f32⟩
  | 60 => ⟨S1600000x64, .f32⟩
  | 61 => ⟨S1600000x64, .f32⟩
  | 62 => ⟨S_, .f32⟩
  | 63 => ⟨S100000x64, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S100000x64, .f32⟩
  | 73 => ⟨S100000x1, .f32⟩
  | 74 => ⟨S100000x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S100000x64, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000x64, .f32⟩
  | 93 => ⟨S1600000x1, .f32⟩
  | 94 => ⟨S1600000x64, .f32⟩
  | 95 => ⟨S1600000x64, .f32⟩
  | 96 => ⟨S_, .f32⟩
  | 97 => ⟨S100000x64, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S100000x64, .f32⟩
  | 107 => ⟨S100000x1, .f32⟩
  | 108 => ⟨S100000x64, .f32⟩
  | 109 => ⟨S100000x64, .f32⟩
  | 110 => ⟨S100000x64, .f32⟩
  | 111 => ⟨S1x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S100000x64, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x64, .f32⟩
  | 127 => ⟨S1600000x1, .f32⟩
  | _ => ⟨S100000x128, .f32⟩

abbrev hbmTy0_1 (i : Nat) : BufTy := match i % 128 with
  | 0 => ⟨S1600000x64, .f32⟩
  | 1 => ⟨S1600000x64, .f32⟩
  | 2 => ⟨S_, .f32⟩
  | 3 => ⟨S100000x64, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S100000x64, .f32⟩
  | 13 => ⟨S100000x1, .f32⟩
  | 14 => ⟨S100000x64, .f32⟩
  | 15 => ⟨S100000x64, .f32⟩
  | 16 => ⟨S100000x64, .f32⟩
  | 17 => ⟨S1x64, .f32⟩
  | 18 => ⟨S100000x64, .f32⟩
  | 19 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_c_10 : Ref sig .tc := ⟨.hbm, 64, rfl⟩
abbrev main_v44 : Ref sig .tc := ⟨.hbm, 65, rfl⟩
abbrev main_v45 : Ref sig .tc := ⟨.hbm, 66, rfl⟩
abbrev main_c_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_call0_cst : Ref sig .tc := ⟨.hbm, 80, rfl⟩
abbrev main_call0_v0 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩
abbrev main_c_15 : Ref sig .tc := ⟨.hbm, 98, rfl⟩
abbrev main_v71 : Ref sig .tc := ⟨.hbm, 99, rfl⟩
abbrev main_v72 : Ref sig .tc := ⟨.hbm, 100, rfl⟩
abbrev main_c_16 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_call1_cst : Ref sig .tc := ⟨.hbm, 114, rfl⟩
abbrev main_call1_v0 : Ref sig .tc := ⟨.hbm, 115, rfl⟩
abbrev main_v85 : Ref sig .tc := ⟨.hbm, 116, rfl⟩
abbrev main_v86 : Ref sig .tc := ⟨.hbm, 117, rfl⟩
abbrev main_c_17 : Ref sig .tc := ⟨.hbm, 118, rfl⟩
abbrev main_v87 : Ref sig .tc := ⟨.hbm, 119, rfl⟩
abbrev main_v88 : Ref sig .tc := ⟨.hbm, 120, rfl⟩
abbrev main_c_18 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_19 : Ref sig .tc := ⟨.hbm, 130, rfl⟩
abbrev main_v97 : Ref sig .tc := ⟨.hbm, 131, rfl⟩
abbrev main_c_20 : Ref sig .tc := ⟨.hbm, 132, rfl⟩
abbrev main_v98 : Ref sig .tc := ⟨.hbm, 133, rfl⟩
abbrev main_v99 : Ref sig .tc := ⟨.hbm, 134, rfl⟩
abbrev main_c_21 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel program's run with every long-lived buffer named.

  Every weakly fair execution of the program terminates, and at the end each long-lived buffer of each device holds
  what the fold through the program's ten segments (four stretches of host operations, six kernel calls) leaves in
  it. The result buffer is then read off that fold; the arguments end as launched.
-/
import proofs.«124498_j67946382623222_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the ten segments: at the end every long-lived buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- The run with the result buffer read off the last boundary's contents and the arguments as launched. -/
theorem run_result : θ_run defs (onTc (τ := τ) (main (F := F))) ⟨m, fun _ => 0, ρ⟩ (fun r => ∀ c : Dev nD,
      r.2.mem ((c.tc : Thread nD τ).loc main_v103) = W10 m ρ c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun s h c =>
      ⟨h c _ (mem_uc main_v103 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)
    (run_all m ρ)

end Cert.KernelIdeal.Run

end
-- ==== Proof.Stage0.lean ====
/-
  What the first stretch of host operations leaves: the edge sources and targets (the two rows of the edge list), the
  weight of every edge and the self-loop weight of every node, each as the reference's own stage of the edge list.
  The two programs compute them by the same operations in the same order, so the equalities are between equal terms.
-/
import proofs.«124498_j67946382623222_1_alg».proof.Proof.Gen.KernelIdeal.Frame
import proofs.«124498_j67946382623222_1_alg».proof.Proof.Gen.ReferenceIdeal.Read

set_option maxRecDepth 16384

noncomputable section

namespace Cert.KernelIdeal.Stage0

open Cert.KernelIdeal Cert.KernelIdeal.Gen
open Idealize.ShloMosaic Idealize.ShloMosaic.TcCoe Idealize.SL.Sem Idealize.ShloMosaic.StableHlo
open Idealize.ShloMosaic.ValueIdx

set_option quotPrecheck false

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)

/-- The edge sources. -/
theorem W1_v1 : W1 m ρ c (Proc.devRef .tc main_v1) = Cert.ReferenceIdeal.Read.val_main_v1 (F := Ideal) a7 := by
  show StableHlo.after hostOps0 (W0 m ρ c) (Proc.devRef .tc main_v1) = _
  after_results_simp <;> rfl

/-- The edge targets. -/
theorem W1_v3 : W1 m ρ c (Proc.devRef .tc main_v3) = Cert.ReferenceIdeal.Read.val_main_v3 (F := Ideal) a7 := by
  show StableHlo.after hostOps0 (W0 m ρ c) (Proc.devRef .tc main_v3) = _
  after_results_simp <;> rfl

/-- The edge weights. -/
theorem W1_v30 : W1 m ρ c (Proc.devRef .tc main_v30) = Cert.ReferenceIdeal.Read.val_main_v30 (F := Ideal) a7 := by
  show StableHlo.after hostOps0 (W0 m ρ c) (Proc.devRef .tc main_v30) = _
  after_results_simp <;> rfl

/-- The self-loop weights. -/
theorem W1_v31 : W1 m ρ c (Proc.devRef .tc main_v31) = Cert.ReferenceIdeal.Read.val_main_v31 (F := Ideal) a7 := by
  show StableHlo.after hostOps0 (W0 m ρ c) (Proc.devRef .tc main_v31) = _
  after_results_simp <;> rfl

end Cert.KernelIdeal.Stage0

end
-- ==== Proof.Carry.lean ====
/-
  Buffers that a later segment reads long after they were written.

  The edge endpoints, the edge weights and the self-loop weights are computed by the first stretch of host operations
  and read again by every later stretch; the weight and bias arguments are read by the calls and stretches of their own
  layer. No segment in between writes any of them: a kernel call writes only its result array, a host stretch only
  its own results. So each of these buffers holds, at every later boundary, what it held when it was written (for an
  argument: what it held at launch).
-/
import proofs.«124498_j67946382623222_1_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- A stretch of host operations leaves a buffer that none of them writes as it was: the goal is
    `StableHlo.after ops W b = W b`, closed by going through the stretch's results one by one. -/
macro "host_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## From the first boundary on: a buffer the first stretch wrote -/

theorem from1to2 (b : Ref sig .tc) (n0 : ∀ w, Pipeline.arrRef spec0 w ≠ b) :
    W2 m ρ c (Proc.devRef .tc b) = W1 m ρ c (Proc.devRef .tc b) := W2_of_ne m ρ c b n0

theorem from1to5 (b : Ref sig .tc) (n0 : ∀ w, Pipeline.arrRef spec0 w ≠ b)
    (k1 : W3 m ρ c (Proc.devRef .tc b) = W2 m ρ c (Proc.devRef .tc b))
    (n1 : ∀ w, Pipeline.arrRef spec1 w ≠ b) (n2 : ∀ w, Pipeline.arrRef spec2 w ≠ b) :
    W5 m ρ c (Proc.devRef .tc b) = W1 m ρ c (Proc.devRef .tc b) :=
  (W5_of_ne m ρ c b n2).trans ((W4_of_ne m ρ c b n1).trans (k1.trans (W2_of_ne m ρ c b n0)))

theorem from1to8 (b : Ref sig .tc) (n0 : ∀ w, Pipeline.arrRef spec0 w ≠ b)
    (k1 : W3 m ρ c (Proc.devRef .tc b) = W2 m ρ c (Proc.devRef .tc b))
    (n1 : ∀ w, Pipeline.arrRef spec1 w ≠ b) (n2 : ∀ w, Pipeline.arrRef spec2 w ≠ b)
    (k3 : W6 m ρ c (Proc.devRef .tc b) = W5 m ρ c (Proc.devRef .tc b))
    (n3 : ∀ w, Pipeline.arrRef spec3 w ≠ b) (n4 : ∀ w, Pipeline.arrRef spec4 w ≠ b) :
    W8 m ρ c (Proc.devRef .tc b) = W1 m ρ c (Proc.devRef .tc b) :=
  (W8_of_ne m ρ c b n4).trans ((W7_of_ne m ρ c b n3).trans (k3.trans (from1to5 m ρ c b n0 k1 n1 n2)))

/-! ### The edge sources, the edge targets, the edge weights, the self-loop weights -/

theorem W2_v1 : W2 m ρ c (Proc.devRef .tc main_v1) = W1 m ρ c (Proc.devRef .tc main_v1) := from1to2 m ρ c main_v1 (by decide)
theorem W2_v3 : W2 m ρ c (Proc.devRef .tc main_v3) = W1 m ρ c (Proc.devRef .tc main_v3) := from1to2 m ρ c main_v3 (by decide)
theorem W2_v30 : W2 m ρ c (Proc.devRef .tc main_v30) = W1 m ρ c (Proc.devRef .tc main_v30) := from1to2 m ρ c main_v30 (by decide)
theorem W2_v31 : W2 m ρ c (Proc.devRef .tc main_v31) = W1 m ρ c (Proc.devRef .tc main_v31) := from1to2 m ρ c main_v31 (by decide)

theorem W5_v1 : W5 m ρ c (Proc.devRef .tc main_v1) = W1 m ρ c (Proc.devRef .tc main_v1) :=
  from1to5 m ρ c main_v1 (by decide) (by host_keeps hostOps1) (by decide) (by decide)
theorem W5_v3 : W5 m ρ c (Proc.devRef .tc main_v3) = W1 m ρ c (Proc.devRef .tc main_v3) :=
  from1to5 m ρ c main_v3 (by decide) (by host_keeps hostOps1) (by decide) (by decide)
theorem W5_v30 : W5 m ρ c (Proc.devRef .tc main_v30) = W1 m ρ c (Proc.devRef .tc main_v30) :=
  from1to5 m ρ c main_v30 (by decide) (by host_keeps hostOps1) (by decide) (by decide)
theorem W5_v31 : W5 m ρ c (Proc.devRef .tc main_v31) = W1 m ρ c (Proc.devRef .tc main_v31) :=
  from1to5 m ρ c main_v31 (by decide) (by host_keeps hostOps1) (by decide) (by decide)

theorem W8_v1 : W8 m ρ c (Proc.devRef .tc main_v1) = W1 m ρ c (Proc.devRef .tc main_v1) :=
  from1to8 m ρ c main_v1 (by decide) (by host_keeps hostOps1) (by decide) (by decide) (by host_keeps hostOps3) (by decide) (by decide)
theorem W8_v3 : W8 m ρ c (Proc.devRef .tc main_v3) = W1 m ρ c (Proc.devRef .tc main_v3) :=
  from1to8 m ρ c main_v3 (by decide) (by host_keeps hostOps1) (by decide) (by decide) (by host_keeps hostOps3) (by decide) (by decide)
theorem W8_v30 : W8 m ρ c (Proc.devRef .tc main_v30) = W1 m ρ c (Proc.devRef .tc main_v30) :=
  from1to8 m ρ c main_v30 (by decide) (by host_keeps hostOps1) (by decide) (by decide) (by host_keeps hostOps3) (by decide) (by decide)
theorem W8_v31 : W8 m ρ c (Proc.devRef .tc main_v31) = W1 m ρ c (Proc.devRef .tc main_v31) :=
  from1to8 m ρ c main_v31 (by decide) (by host_keeps hostOps1) (by decide) (by decide) (by host_keeps hostOps3) (by decide) (by decide)

/-! ## From the launch on: an argument -/

theorem arg_at1 (b : Ref sig .tc) (k0 : W1 m ρ c (Proc.devRef .tc b) = W0 m ρ c (Proc.devRef .tc b)) :
    W1 m ρ c (Proc.devRef .tc b) = m ((c : Thread nD τ).loc b) := k0.trans rfl

theorem arg_at2 (b : Ref sig .tc) (k0 : W1 m ρ c (Proc.devRef .tc b) = W0 m ρ c (Proc.devRef .tc b))
    (n0 : ∀ w, Pipeline.arrRef spec0 w ≠ b) : W2 m ρ c (Proc.devRef .tc b) = m ((c : Thread nD τ).loc b) :=
  (W2_of_ne m ρ c b n0).trans (arg_at1 m ρ c b k0)

theorem arg_at4 (b : Ref sig .tc) (k0 : W1 m ρ c (Proc.devRef .tc b) = W0 m ρ c (Proc.devRef .tc b))
    (n0 : ∀ w, Pipeline.arrRef spec0 w ≠ b) (k1 : W3 m ρ c (Proc.devRef .tc b) = W2 m ρ c (Proc.devRef .tc b))
    (n1 : ∀ w, Pipeline.arrRef spec1 w ≠ b) : W4 m ρ c (Proc.devRef .tc b) = m ((c : Thread nD τ).loc b) :=
  (W4_of_ne m ρ c b n1).trans (k1.trans (arg_at2 m ρ c b k0 n0))

theorem arg_at5 (b : Ref sig .tc) (k0 : W1 m ρ c (Proc.devRef .tc b) = W0 m ρ c (Proc.devRef .tc b))
    (n0 : ∀ w, Pipeline.arrRef spec0 w ≠ b) (k1 : W3 m ρ c (Proc.devRef .tc b) = W2 m ρ c (Proc.devRef .tc b))
    (n1 : ∀ w, Pipeline.arrRef spec1 w ≠ b) (n2 : ∀ w, Pipeline.arrRef spec2 w ≠ b) :
    W5 m ρ c (Proc.devRef .tc b) = m ((c : Thread nD τ).loc b) :=
  (W5_of_ne m ρ c b n2).trans (arg_at4 m ρ c b k0 n0 k1 n1)

theorem arg_at7 (b : Ref sig .tc) (k0 : W1 m ρ c (Proc.devRef .tc b) = W0 m ρ c (Proc.devRef .tc b))
    (n0 : ∀ w, Pipeline.arrRef spec0 w ≠ b) (k1 : W3 m ρ c (Proc.devRef .tc b) = W2 m ρ c (Proc.devRef .tc b))
    (n1 : ∀ w, Pipeline.arrRef spec1 w ≠ b) (n2 : ∀ w, Pipeline.arrRef spec2 w ≠ b)
    (k3 : W6 m ρ c (Proc.devRef .tc b) = W5 m ρ c (Proc.devRef .tc b)) (n3 : ∀ w, Pipeline.arrRef spec3 w ≠ b) :
    W7 m ρ c (Proc.devRef .tc b) = m ((c : Thread nD τ).loc b) :=
  (W7_of_ne m ρ c b n3).trans (k3.trans (arg_at5 m ρ c b k0 n0 k1 n1 n2))

theorem arg_at8 (b : Ref sig .tc) (k0 : W1 m ρ c (Proc.devRef .tc b) = W0 m ρ c (Proc.devRef .tc b))
    (n0 : ∀ w, Pipeline.arrRef spec0 w ≠ b) (k1 : W3 m ρ c (Proc.devRef .tc b) = W2 m ρ c (Proc.devRef .tc b))
    (n1 : ∀ w, Pipeline.arrRef spec1 w ≠ b) (n2 : ∀ w, Pipeline.arrRef spec2 w ≠ b)
    (k3 : W6 m ρ c (Proc.devRef .tc b) = W5 m ρ c (Proc.devRef .tc b)) (n3 : ∀ w, Pipeline.arrRef spec3 w ≠ b)
    (n4 : ∀ w, Pipeline.arrRef spec4 w ≠ b) : W8 m ρ c (Proc.devRef .tc b) = m ((c : Thread nD τ).loc b) :=
  (W8_of_ne m ρ c b n4).trans (arg_at7 m ρ c b k0 n0 k1 n1 n2 k3 n3)

/-! ### The feature matrix, the three weight matrices, the three biases -/

theorem W1_arg0 : W1 m ρ c (Proc.devRef .tc main_arg0) = m ((c : Thread nD τ).loc main_arg0) :=
  arg_at1 m ρ c main_arg0 (by host_keeps hostOps0)
theorem W1_arg1 : W1 m ρ c (Proc.devRef .tc main_arg1) = m ((c : Thread nD τ).loc main_arg1) :=
  arg_at1 m ρ c main_arg1 (by host_keeps hostOps0)
theorem W1_arg7 : W0 m ρ c (Proc.devRef .tc main_arg7) = m ((c : Thread nD τ).loc main_arg7) := rfl
theorem W2_arg2 : W2 m ρ c (Proc.devRef .tc main_arg2) = m ((c : Thread nD τ).loc main_arg2) :=
  arg_at2 m ρ c main_arg2 (by host_keeps hostOps0) (by decide)
theorem W4_arg3 : W4 m ρ c (Proc.devRef .tc main_arg3) = m ((c : Thread nD τ).loc main_arg3) :=
  arg_at4 m ρ c main_arg3 (by host_keeps hostOps0) (by decide) (by host_keeps hostOps1) (by decide)
theorem W5_arg4 : W5 m ρ c (Proc.devRef .tc main_arg4) = m ((c : Thread nD τ).loc main_arg4) :=
  arg_at5 m ρ c main_arg4 (by host_keeps hostOps0) (by decide) (by host_keeps hostOps1) (by decide) (by decide)
theorem W7_arg5 : W7 m ρ c (Proc.devRef .tc main_arg5) = m ((c : Thread nD τ).loc main_arg5) :=
  arg_at7 m ρ c main_arg5 (by host_keeps hostOps0) (by decide) (by host_keeps hostOps1) (by decide) (by decide)
    (by host_keeps hostOps3) (by decide)
theorem W8_arg6 : W8 m ρ c (Proc.devRef .tc main_arg6) = m ((c : Thread nD τ).loc main_arg6) :=
  arg_at8 m ρ c main_arg6 (by host_keeps hostOps0) (by decide) (by host_keeps hostOps1) (by decide) (by decide)
    (by host_keeps hostOps3) (by decide) (by decide)

end Cert.KernelIdeal.Carry

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.MatProd.lean ====
/-
  The projection of a layer as one function of its two operands: entry `(p, q)` of the product of an `[M, K]` array by a
  `[K, N]` matrix is the sum over `k` of `a (p, k) · w (k, q)`, on the extended reals.
-/
import Idealize.ShloMosaic.PureOps.Ideal
import Idealize.ShloMosaic.Lib.ValueIdx

noncomputable section

namespace Cert.Gcn

open Idealize.ShloMosaic Idealize.ShloMosaic.ValueIdx
open scoped BigOperators

/-- The product array: at index `i`, the sum over the contracted coordinate. -/
def matProd {M K N : ℕ} (a : FVec Ideal ⟨2, ![M, K]⟩ .f32) (w : FVec Ideal ⟨2, ![K, N]⟩ .f32) : FVec Ideal ⟨2, ![M, N]⟩ .f32 :=
  fun i => ∑ k : Fin K, a (ix2 (⟨(i 0).val, idx2_lt0 i⟩ : Fin M) k) * w (ix2 k (⟨(i 1).val, idx2_lt1 i⟩ : Fin N))

/-- The product array at explicit coordinates. -/
theorem matProd_apply {M K N : ℕ} (a : FVec Ideal ⟨2, ![M, K]⟩ .f32) (w : FVec Ideal ⟨2, ![K, N]⟩ .f32) (p : Fin M) (q : Fin N) :
    matProd a w (ix2 p q) = ∑ k : Fin K, a (ix2 p k) * w (ix2 k q) := rfl

end Cert.Gcn

end
-- ==== Proof.Proj0.lean ====
/-
  The projection kernel of call 0, read as a whole array.

  The grid has twenty points; point `t` reads rows `5000 t … 5000 t + 4999` of the left operand and the whole right
  operand, multiplies them (the narrowing of both operands before the product is the identity on extended reals) and
  writes rows `5000 t … 5000 t + 4999` of the result. Every row of the result lies in exactly the block of point
  `row / 5000`, so after the last point the result array is the product of the two arrays as the call found them.
-/
import proofs.«124498_j67946382623222_1_alg».proof.Proof.Gen.KernelIdeal.Frame
import proofs.«124498_j67946382623222_1_alg».proof.Proof.LibPlainDot
import proofs.«124498_j67946382623222_1_alg».proof.Proof.MatProd
import Idealize.ShloMosaic.Lib.Pipeline.Value
import Idealize.ShloMosaic.Lib.ValueIdx

set_option maxRecDepth 16384

noncomputable section

namespace Cert.KernelIdeal.Proj0

open Cert.KernelIdeal Cert.KernelIdeal.Gen Idealize.ShloMosaic Idealize.ShloMosaic.TcCoe Idealize.SL.Sem
open Idealize.ShloMosaic.ValueIdx Cert.Gcn
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- What the body stores, at row `p` and column `q` of the block: the sum over the contracted coordinate. -/
theorem out_apply (x0 : Vec Ideal S5000x128 .f32) (x1 : Vec Ideal S128x64 .f32) (p : Fin 5000) (q : Fin 64) :
    out0_2 x0 x1 (ix2 p q) = ∑ k : Fin 128, x0 (ix2 p k) * x1 (ix2 k q) := by
  unfold out0_2
  rw [View.canon_unit_zero hz]
  simp only [View.ld_unit_zero (S := S5000x128) hz, View.ld_unit_zero (S := S128x64) hz]
  unfold k0_pay1
  exact Cert.LibPlainDot.matmul_plain_apply dot_S5000x128_S128x64_S5000x64_1_0_0_1_n_n rfl rfl rfl rfl rfl rfl none
    (truncf .bf16 x0 bitsLt_bf16_f32) (truncf .bf16 x1 bitsLt_bf16_f32) p q

/-- The printed block index maps over the grid: the left operand and the result move down one block of rows per point,
    the right operand stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block's entry `j` against the product array's entry `i`, when `i` is `j` moved down `tv` blocks of rows and
    the two loaded blocks are the operands' rows and the whole right operand. -/
theorem blk_eq (x0 : Vec Ideal S5000x128 .f32) (x1 : Vec Ideal S128x64 .f32)
    (a : FVec Ideal ⟨2, ![100000, 128]⟩ .f32) (w : FVec Ideal ⟨2, ![128, 64]⟩ .f32) (tv : ℕ)
    (j : S5000x64.Idx) (i : (⟨2, ![100000, 64]⟩ : Shape).Idx)
    (hi0 : (i 0).val = tv * 5000 + (j 0).val) (hi1 : (i 1).val = (j 1).val)
    (hx0 : ∀ (y : S5000x128.Idx) (z : (⟨2, ![100000, 128]⟩ : Shape).Idx), (z 0).val = tv * 5000 + (y 0).val → (z 1).val = (y 1).val → x0 y = a z)
    (hx1 : ∀ y : S128x64.Idx, x1 y = w y) :
    out0_2 x0 x1 j = matProd a w i := by
  obtain ⟨p, q, rfl⟩ : ∃ (p : Fin 5000) (q : Fin 64), j = ix2 p q := ⟨j 0, j 1, eq_ix2 j⟩
  obtain ⟨P, Q, rfl⟩ : ∃ (P : Fin 100000) (Q : Fin 64), i = ix2 P Q := ⟨i 0, i 1, eq_ix2 i⟩
  have hQ : Q = q := Fin.ext hi1
  subst hQ
  rw [out_apply, matProd_apply]
  refine Finset.sum_congr rfl fun k _ => ?_
  rw [hx0 (ix2 p k) (ix2 P k) hi0 rfl, hx1]

/-- What point `t` writes back is block `t` of the product of the two arrays as the call found them. -/
theorem flushed_eq (c : Dev nD) (t : Fin cfg0.N) :
    (dat0 V c).flushed 2 t = ((cfg0.win 2).blk t).view.read (Elt Ideal) (matProd (M := 100000) (K := 128) (N := 64) (V c main_arg0) (V c main_arg1)) := by
  show (cfg0.win 2).cut (grid0.coords t) ((dat0 V c).after 2 t) = _
  rw [after0_2]
  obtain ⟨e0, e1, e2, e3, e4, e5⟩ := idx_facts t
  funext j
  show out0_2 (iblk0 V c 0 t) (iblk0 V c 1 t) j = matProd (M := 100000) (K := 128) (N := 64) (V c main_arg0) (V c main_arg1) (((cfg0.win 2).blk t).view.emb j)
  refine blk_eq (iblk0 V c 0 t) (iblk0 V c 1 t) (V c main_arg0) (V c main_arg1) t.val j _ ?_ ?_ ?_ ?_
  · show win0_2.index t (0 : Fin 2) * 5000 + 1 * (j 0).val = _
    rw [e4]; omega
  · show win0_2.index t (1 : Fin 2) * 64 + 1 * (j 1).val = _
    rw [e5]; omega
  · intro y z h0 h1
    show V c main_arg0 (((cfg0.win 0).blk t).view.emb y) = V c main_arg0 z
    refine congrArg _ (funext fun ax => Fin.ext ?_)
    match ax with
    | ⟨0, _⟩ => show win0_0.index t (0 : Fin 2) * 5000 + 1 * (y 0).val = (z 0).val; rw [e0, h0]; omega
    | ⟨1, _⟩ => show win0_0.index t (1 : Fin 2) * 128 + 1 * (y 1).val = (z 1).val; rw [e1, h1]; omega
  · intro y
    show V c main_arg1 (((cfg0.win 1).blk t).view.emb y) = V c main_arg1 y
    refine congrArg _ (funext fun ax => Fin.ext ?_)
    match ax with
    | ⟨0, _⟩ => show win0_1.index t (0 : Fin 2) * 128 + 1 * (y 0).val = (y 0).val; rw [e2]; omega
    | ⟨1, _⟩ => show win0_1.index t (1 : Fin 2) * 64 + 1 * (y 1).val = (y 1).val; rw [e3]; omega

/-- An index of the result array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Every index of the result array is in the block of the point `row / 5000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_2 _, ?_⟩
  rw [mem_blk]
  obtain ⟨e0, e1, e2, e3, e4, e5⟩ := idx_facts ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 64 ≤ (i 1).val ∧ (i 1).val < win0_2.index _ (1 : Fin 2) * 64 + 64
    rw [e5]; omega

/-- After the call the result array is the product of the two operand arrays as the call found them. -/
theorem final (c : Dev nD) : (dat0 V c).arrAt 2 cfg0.N = matProd (M := 100000) (K := 128) (N := 64) (V c main_arg0) (V c main_arg1) :=
  (dat0 V c).arrAt_eq_of_cover 2 (matProd (M := 100000) (K := 128) (N := 64) (V c main_arg0) (V c main_arg1)) (fun t _ => flushed_eq V c t) cover

end Cert.KernelIdeal.Proj0

end
-- ==== Proof.Combine.lean ====
/-
  The closing pass of a layer as one function of its three operands: at node `p` and feature `q` the self-loop term
  plus the aggregated messages plus the bias of feature `q` (read from the one row of a `[1, c]` array), and for the
  rectified layers the larger of that and the float zero word's value.
-/
import Idealize.ShloMosaic.PureOps.Ideal
import Idealize.ShloMosaic.Lib.ValueIdx

noncomputable section

namespace Cert.Gcn

open Idealize.ShloMosaic Idealize.ShloMosaic.ValueIdx

/-- Self-loop term plus aggregate plus bias. -/
def comb {n c : ℕ} (hs agg : FVec Ideal ⟨2, ![n, c]⟩ .f32) (brow : FVec Ideal ⟨2, ![1, c]⟩ .f32) : FVec Ideal ⟨2, ![n, c]⟩ .f32 :=
  fun i => (hs i + agg i) + brow (ix2 (0 : Fin 1) (⟨(i 1).val, idx2_lt1 i⟩ : Fin c))

/-- The same, rectified. -/
def combRelu {n c : ℕ} (hs agg : FVec Ideal ⟨2, ![n, c]⟩ .f32) (brow : FVec Ideal ⟨2, ![1, c]⟩ .f32) : FVec Ideal ⟨2, ![n, c]⟩ .f32 :=
  fun i => max (comb hs agg brow i) (Ideal.ofBits .f32 0x00000000#32)

theorem comb_apply {n c : ℕ} (hs agg : FVec Ideal ⟨2, ![n, c]⟩ .f32) (brow : FVec Ideal ⟨2, ![1, c]⟩ .f32) (p : Fin n) (q : Fin c) :
    comb hs agg brow (ix2 p q) = (hs (ix2 p q) + agg (ix2 p q)) + brow (ix2 (0 : Fin 1) q) := rfl

theorem combRelu_apply {n c : ℕ} (hs agg : FVec Ideal ⟨2, ![n, c]⟩ .f32) (brow : FVec Ideal ⟨2, ![1, c]⟩ .f32) (p : Fin n) (q : Fin c) :
    combRelu hs agg brow (ix2 p q)
      = max ((hs (ix2 p q) + agg (ix2 p q)) + brow (ix2 (0 : Fin 1) q)) (Ideal.ofBits .f32 0x00000000#32) := rfl

end Cert.Gcn

end
-- ==== Proof.Close1.lean ====
/-
  The closing kernel of call 1 (self-loop term + aggregate + bias, rectified), read as a whole array.

  The grid has twenty points; point `t` reads rows `5000 t … 5000 t + 4999` of the two node arrays and the one bias row,
  adds them entry by entry (the bias row repeated over the block's rows), takes the maximum with zero and writes rows
  `5000 t … 5000 t + 4999` of the result. Every row of the result lies in exactly the block of point `row / 5000`, so after
  the last point the result array is that function of the three arrays as the call found them.
-/
import proofs.«124498_j67946382623222_1_alg».proof.Proof.Gen.KernelIdeal.Frame
import proofs.«124498_j67946382623222_1_alg».proof.Proof.Combine
import Idealize.ShloMosaic.Lib.Pipeline.Value
import Idealize.ShloMosaic.Lib.ValueIdx
import Idealize.ShloMosaic.Lib.ValueLayout

set_option maxRecDepth 16384

noncomputable section

namespace Cert.KernelIdeal.Close1

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the body stores, at row `p` and column `q` of the block. -/
theorem out_apply (x0 x1 : Vec Ideal S5000x64 .f32) (x2 : Vec Ideal S1x64 .f32) (p : Fin 5000) (q : Fin 64) :
    out1_3 x0 x1 x2 (ix2 p q)
      = max ((x0 (ix2 p q) + x1 (ix2 p q)) + x2 (ix2 (0 : Fin 1) q)) (Ideal.ofBits .f32 0x00000000#32) := by
  unfold out1_3
  rw [View.canon_unit_zero hz]
  simp only [View.ld_unit_zero (S := S5000x64) hz, View.ld_unit_zero (S := S1x64) hz]
  unfold k1_pay1
  simp only [shapeCast_self]
  rw [maximumf_apply, addf_apply, addf_apply, broadcastTo_1b_ab_apply, broadcast_apply]
  rfl

/-- The printed block index maps over the grid: the two node arrays and the result move down one block of rows per
    point, the bias row stays. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The block's entry `j` against the whole-array function's entry `i`, when `i` is `j` moved down `tv` blocks of rows
    and the loaded blocks are the two arrays' rows and the whole bias row. -/
theorem blk_eq (x0 x1 : Vec Ideal S5000x64 .f32) (x2 : Vec Ideal S1x64 .f32)
    (hs agg : FVec Ideal ⟨2, ![100000, 64]⟩ .f32) (brow : FVec Ideal ⟨2, ![1, 64]⟩ .f32) (tv : ℕ)
    (j : S5000x64.Idx) (i : (⟨2, ![100000, 64]⟩ : Shape).Idx)
    (hi0 : (i 0).val = tv * 5000 + (j 0).val) (hi1 : (i 1).val = (j 1).val)
    (hx0 : ∀ (y : S5000x64.Idx) (z : (⟨2, ![100000, 64]⟩ : Shape).Idx), (z 0).val = tv * 5000 + (y 0).val → (z 1).val = (y 1).val → x0 y = hs z)
    (hx1 : ∀ (y : S5000x64.Idx) (z : (⟨2, ![100000, 64]⟩ : Shape).Idx), (z 0).val = tv * 5000 + (y 0).val → (z 1).val = (y 1).val → x1 y = agg z)
    (hx2 : ∀ y : S1x64.Idx, x2 y = brow y) :
    out1_3 x0 x1 x2 j = combRelu hs agg brow i := by
  obtain ⟨p, q, rfl⟩ : ∃ (p : Fin 5000) (q : Fin 64), j = ix2 p q := ⟨j 0, j 1, eq_ix2 j⟩
  obtain ⟨P, Q, rfl⟩ : ∃ (P : Fin 100000) (Q : Fin 64), i = ix2 P Q := ⟨i 0, i 1, eq_ix2 i⟩
  have hQ : Q = q := Fin.ext hi1
  subst hQ
  rw [out_apply, combRelu_apply, hx0 (ix2 p Q) (ix2 P Q) hi0 rfl, hx1 (ix2 p Q) (ix2 P Q) hi0 rfl, hx2]

/-- What point `t` writes back is block `t` of the whole-array function of the three arrays as the call found them. -/
theorem flushed_eq (c : Dev nD) (t : Fin cfg1.N) :
    (dat1 V c).flushed 3 t = ((cfg1.win 3).blk t).view.read (Elt Ideal) (combRelu (n := 100000) (c := 64) (V c main_v53) (V c main_v50) (V c main_v54)) := by
  show (cfg1.win 3).cut (grid1.coords t) ((dat1 V c).after 3 t) = _
  rw [after1_3]
  obtain ⟨e0, e1, e2, e3, e4, e5, e6, e7⟩ := idx_facts t
  funext j
  show out1_3 (iblk1 V c 0 t) (iblk1 V c 1 t) (iblk1 V c 2 t) j
    = combRelu (n := 100000) (c := 64) (V c main_v53) (V c main_v50) (V c main_v54) (((cfg1.win 3).blk t).view.emb j)
  refine blk_eq (iblk1 V c 0 t) (iblk1 V c 1 t) (iblk1 V c 2 t) (V c main_v53) (V c main_v50) (V c main_v54) t.val j _ ?_ ?_ ?_ ?_ ?_
  · show win1_3.index t (0 : Fin 2) * 5000 + 1 * (j 0).val = _
    rw [e6]; omega
  · show win1_3.index t (1 : Fin 2) * 64 + 1 * (j 1).val = _
    rw [e7]; omega
  · intro y z h0 h1
    show V c main_v53 (((cfg1.win 0).blk t).view.emb y) = V c main_v53 z
    refine congrArg _ (funext fun ax => Fin.ext ?_)
    match ax with
    | ⟨0, _⟩ => show win1_0.index t (0 : Fin 2) * 5000 + 1 * (y 0).val = (z 0).val; rw [e0, h0]; omega
    | ⟨1, _⟩ => show win1_0.index t (1 : Fin 2) * 64 + 1 * (y 1).val = (z 1).val; rw [e1, h1]; omega
  · intro y z h0 h1
    show V c main_v50 (((cfg1.win 1).blk t).view.emb y) = V c main_v50 z
    refine congrArg _ (funext fun ax => Fin.ext ?_)
    match ax with
    | ⟨0, _⟩ => show win1_1.index t (0 : Fin 2) * 5000 + 1 * (y 0).val = (z 0).val; rw [e2, h0]; omega
    | ⟨1, _⟩ => show win1_1.index t (1 : Fin 2) * 64 + 1 * (y 1).val = (z 1).val; rw [e3, h1]; omega
  · intro y
    show V c main_v54 (((cfg1.win 2).blk t).view.emb y) = V c main_v54 y
    refine congrArg _ (funext fun ax => Fin.ext ?_)
    match ax with
    | ⟨0, _⟩ => show win1_2.index t (0 : Fin 2) * 1 + 1 * (y 0).val = (y 0).val; rw [e4]; omega
    | ⟨1, _⟩ => show win1_2.index t (1 : Fin 2) * 64 + 1 * (y 1).val = (y 1).val; rw [e5]; omega

/-- An index of the result array is in point `t`'s block iff each coordinate is in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v55).slice (win1_3.rect t)).set ↔ _
  rw [View.set_slice_whole, Rect.mem_set_unit]
  exact Iff.rfl

/-- Every index of the result array is in the block of the point `row / 5000`. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_3 _, ?_⟩
  rw [mem_blk]
  obtain ⟨e0, e1, e2, e3, e4, e5, e6, e7⟩ := idx_facts ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e6]; show (i 0).val / 5000 * 5000 ≤ (i 0).val ∧ (i 0).val < (i 0).val / 5000 * 5000 + 5000; omega
  | ⟨1, _⟩ =>
    show win1_3.index _ (1 : Fin 2) * 64 ≤ (i 1).val ∧ (i 1).val < win1_3.index _ (1 : Fin 2) * 64 + 64
    rw [e7]; omega

/-- After the call the result array is the rectified sum of the three arrays as the call found them. -/
theorem final (c : Dev nD) : (dat1 V c).arrAt 3 cfg1.N = combRelu (n := 100000) (c := 64) (V c main_v53) (V c main_v50) (V c main_v54) :=
  (dat1 V c).arrAt_eq_of_cover 3 (combRelu (n := 100000) (c := 64) (V c main_v53) (V c main_v50) (V c main_v54)) (fun t _ => flushed_eq V c t) cover

end Cert.KernelIdeal.Close1

end
-- ==== Proof.LibHostDense.lean ====
/-
  A dense layer of a host program read at coordinates, at the extended reals.

  A `dot_general` of an `[M, K]` array by a `[K, N]` matrix that contracts the left operand's columns with the right
  operand's rows and has no batch axis is, at `(p, q)`, the sum over `k` of `l (p, k) · W (k, q)`: the product into a zero
  accumulator and the host's product are one sum. A length-`N` vector laid out as the row `[1, N]` (`broadcast_in_dim`
  along axis 1) and repeated over `M` rows reads, at `(p, q)`, the vector at `q`; a scalar repeated over an array reads the
  scalar at every index. Together they read a rectified dense layer, `max (l · W + b) c`, at `(p, q)`.
-/
import proofs.«124498_j67946382623222_1_alg».proof.Proof.LibPlainDot
import Idealize.ShloMosaic.Lib.Pipeline.Value

noncomputable section

namespace Cert.LibHostDense

open Idealize.ShloMosaic Idealize.ShloMosaic.ValueIdx
open scoped BigOperators

variable {α : Type}

/-- The host's product at `(p, q)`. -/
theorem hostDot_plain_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  show FloatOps.dotGeneral d prec .single l r (ix2 p q) = _
  rw [Ideal.dotGeneral_apply, ← Ideal.matmul_constant_zero_apply d prec]
  exact Cert.LibPlainDot.matmul_plain_apply d hlc hrc hlb hrb hln hrn prec l r p q

/-- A length-`n` vector laid out as the row `[1, n]` reads, at `(0, q)`, the vector at `q`. -/
theorem bcastRow_apply {n : ℕ} (x : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h x (ix2 u q) = x (ix1 q) := by
  refine broadcastInDim_apply _ h x (ix2 u q) (ix1 q) fun a => ?_
  match a with
  | ⟨0, _⟩ =>
    show q.val = if n = 1 then 0 else q.val
    split
    · have := q.isLt; omega
    · rfl

/-- A row `[1, n]` repeated over `m` rows reads, at `(p, q)`, the row at `q`. -/
theorem bcastRows_apply {m n : ℕ} (x : (⟨2, ![1, n]⟩ : Shape).Idx → α)
    (h : (⟨2, ![1, n]⟩ : Shape).BroadcastsInDim ⟨2, ![m, n]⟩ (![0, 1] : Fin 2 → Fin 2)) (p : Fin m) (q : Fin n) :
    broadcastInDim ⟨2, ![m, n]⟩ ![0, 1] h x (ix2 p q) = x (ix2 (0 : Fin 1) q) := by
  refine broadcastInDim_apply _ h x (ix2 p q) (ix2 (0 : Fin 1) q) fun a => ?_
  match a with
  | ⟨0, _⟩ => show 0 = if (1 : ℕ) = 1 then 0 else p.val; rw [if_pos rfl]
  | ⟨1, _⟩ =>
    show q.val = if n = 1 then 0 else q.val
    split
    · have := q.isLt; omega
    · rfl

/-- A scalar repeated over an array reads the scalar at every index. -/
theorem bcastScalar_apply {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

/-- A rectified dense layer of a host program at `(p, q)`: the product, the bias row repeated over the rows, the
    maximum with a repeated scalar constant. -/
theorem hostDenseMax_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (w : BitVec 32) (p : Fin M) (q : Fin N) :
    maximumf (addf (Host.dotGeneral d prec l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 w)) (ix2 p q)
      = max ((∑ k : Fin K, l (ix2 p k) * W (ix2 k q)) + b (ix1 q)) (Ideal.ofBits .f32 w) := by
  rw [maximumf_apply, addf_apply, hostDot_plain_apply d hlc hrc hlb hrb hln hrn, bcastRows_apply, bcastRow_apply,
    bcastScalar_apply, constant_apply]

end Cert.LibHostDense

end
-- ==== Proof.LibGcnLayer.lean ====
/-
  One graph-convolution layer read at coordinates, at the extended reals.

  The layer's value at node `p` and feature `q` is `agg (p, q) + s (p) · h (p, q) + b (q)`, where `h` is the
  projected feature matrix, `s` the self-loop weight of each node laid out as a column and repeated over the
  features, `agg` the aggregated neighbour messages and `b` the bias laid out as a row and repeated over the
  nodes. Two spellings of it are compared: `(h · s + agg) + b` with the bias row cast from a vector and read
  through its one row, and `(agg + s · h) + b` with the bias row repeated over the nodes by two
  `broadcast_in_dim`s. They agree at every extended real because sum and product are commutative there; no
  finiteness is needed. The same holds after a maximum with a repeated scalar constant (the rectifier).

  Also here: a length-`n` vector laid out as the column `[n, 1]` and that column repeated over `c` columns,
  read at coordinates.
-/
import Idealize.ShloMosaic.Lib.Pipeline.Value
import Idealize.ShloMosaic.Lib.ValueIdx
import Idealize.ShloMosaic.Lib.ValueLayout

noncomputable section

namespace Cert.LibGcnLayer

open Idealize.ShloMosaic Idealize.ShloMosaic.ValueIdx

variable {α : Type}

/-- A length-`n` vector laid out as the column `[n, 1]` reads, at `(p, u)`, the vector at `p`. -/
theorem bcastCol_apply {n : ℕ} (x : (⟨1, ![n]⟩ : Shape).Idx → α)
    (h : (⟨1, ![n]⟩ : Shape).BroadcastsInDim ⟨2, ![n, 1]⟩ (![0] : Fin 1 → Fin 2)) (p : Fin n) (u : Fin 1) :
    broadcastInDim ⟨2, ![n, 1]⟩ ![0] h x (ix2 p u) = x (ix1 p) := by
  refine broadcastInDim_apply _ h x (ix2 p u) (ix1 p) fun a => ?_
  match a with
  | ⟨0, _⟩ =>
    show p.val = if n = 1 then 0 else p.val
    split
    · have := p.isLt; omega
    · rfl

/-- A column `[n, 1]` repeated over `c` columns reads, at `(p, q)`, the column at `p`. -/
theorem bcastCols_apply {n c : ℕ} (x : (⟨2, ![n, 1]⟩ : Shape).Idx → α)
    (h : (⟨2, ![n, 1]⟩ : Shape).BroadcastsInDim ⟨2, ![n, c]⟩ (![0, 1] : Fin 2 → Fin 2)) (p : Fin n) (q : Fin c) :
    broadcastInDim ⟨2, ![n, c]⟩ ![0, 1] h x (ix2 p q) = x (ix2 p (0 : Fin 1)) := by
  refine broadcastInDim_apply _ h x (ix2 p q) (ix2 p (0 : Fin 1)) fun a => ?_
  match a with
  | ⟨0, _⟩ =>
    show p.val = if n = 1 then 0 else p.val
    split
    · have := p.isLt; omega
    · rfl
  | ⟨1, _⟩ => show 0 = if (1 : ℕ) = 1 then 0 else q.val; rw [if_pos rfl]

/-- A length-`c` vector laid out as the row `[1, c]` and repeated over `n` rows reads, at `(p, q)`, the vector at `q`. -/
theorem bcastRowRows_apply {n c : ℕ} (b : (⟨1, ![c]⟩ : Shape).Idx → α)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (p : Fin n) (q : Fin c) :
    broadcastInDim ⟨2, ![n, c]⟩ ![0, 1] h2 (broadcastInDim ⟨2, ![1, c]⟩ ![1] h1 b) (ix2 p q) = b (ix1 q) := by
  have e1 : broadcastInDim ⟨2, ![n, c]⟩ ![0, 1] h2 (broadcastInDim ⟨2, ![1, c]⟩ ![1] h1 b) (ix2 p q)
      = broadcastInDim ⟨2, ![1, c]⟩ ![1] h1 b (ix2 (0 : Fin 1) q) := by
    refine broadcastInDim_apply _ h2 _ (ix2 p q) (ix2 (0 : Fin 1) q) fun a => ?_
    match a with
    | ⟨0, _⟩ => show 0 = if (1 : ℕ) = 1 then 0 else p.val; rw [if_pos rfl]
    | ⟨1, _⟩ =>
      show q.val = if c = 1 then 0 else q.val
      split
      · have := q.isLt; omega
      · rfl
  rw [e1]
  refine broadcastInDim_apply _ h1 b (ix2 (0 : Fin 1) q) (ix1 q) fun a => ?_
  match a with
  | ⟨0, _⟩ =>
    show q.val = if c = 1 then 0 else q.val
    split
    · have := q.isLt; omega
    · rfl

/-- A length-`c` vector cast to the row `[1, c]` reads, at `(0, q)`, the vector at `q`. -/
theorem castRow_apply {c : ℕ} (b : (⟨1, ![c]⟩ : Shape).Idx → α) (h : (⟨1, ![c]⟩ : Shape).ShapeCasts ⟨2, ![1, c]⟩) (q : Fin c) :
    shapeCast (⟨2, ![1, c]⟩ : Shape) b h (ix2 (0 : Fin 1) q) = b (ix1 q) := by
  refine shapeCast_apply b h (ix2 (0 : Fin 1) q) (ix1 q) ?_
  rw [Shape.rowMajor_val_one, Shape.rowMajor_val_two]
  show q.val = (0 : Fin 1).val * c + q.val
  simp

/-- The layer without the rectifier: `(h · s + agg) + b` through the cast bias row is `(agg + s · h) + b` through the
    repeated bias row, at every node and feature. -/
theorem layer_eq {n c : ℕ} (hW sn agg : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (p : Fin n) (q : Fin c) :
    (mulf hW sn (ix2 p q) + agg (ix2 p q)) + shapeCast (⟨2, ![1, c]⟩ : Shape) b hc (ix2 (0 : Fin 1) q)
      = addf (addf agg (mulf sn hW)) (broadcastInDim ⟨2, ![n, c]⟩ ![0, 1] h2 (broadcastInDim ⟨2, ![1, c]⟩ ![1] h1 b)) (ix2 p q) := by
  rw [addf_apply, addf_apply, mulf_apply, mulf_apply, bcastRowRows_apply, castRow_apply, mul_comm (hW (ix2 p q)),
    add_comm (sn (ix2 p q) * hW (ix2 p q))]

/-- The rectified layer: the maximum of either spelling with a scalar constant, the constant repeated over the array on
    one side. -/
theorem layer_relu_eq {n c : ℕ} (hW sn agg : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2))
    (h0 : (⟨0, ![]⟩ : Shape).BroadcastsInDim ⟨2, ![n, c]⟩ (![] : Fin 0 → Fin 2)) (w : BitVec 32) (p : Fin n) (q : Fin c) :
    max ((mulf hW sn (ix2 p q) + agg (ix2 p q)) + shapeCast (⟨2, ![1, c]⟩ : Shape) b hc (ix2 (0 : Fin 1) q)) (Ideal.ofBits .f32 w)
      = maximumf (addf (addf agg (mulf sn hW)) (broadcastInDim ⟨2, ![n, c]⟩ ![0, 1] h2 (broadcastInDim ⟨2, ![1, c]⟩ ![1] h1 b)))
          (broadcastInDim ⟨2, ![n, c]⟩ ![] h0 (constant (F := Ideal) ⟨0, ![]⟩ .f32 w)) (ix2 p q) := by
  rw [maximumf_apply, ← layer_eq hW sn agg b hc h1 h2 p q]
  congr 1

end Cert.LibGcnLayer

end
-- ==== Proof.Layer1.lean ====
/-
  The first layer of the kernel program, boundary by boundary, against the reference's stages.

  The projection call leaves the product of the feature matrix and the first weight matrix, which is the reference's
  `dot_general` (both are the same sum over the contracted coordinate). The host stretch after it gathers the projected
  rows at the edge sources, scales them by the edge weights, scatter-adds them at the edge targets (the reference's
  aggregate, by the same operations), scales the projected rows by the self-loop weights and lays the bias out as a row.
  The closing call adds the three and rectifies: `(h · s + agg) + b` against the reference's `(agg + s · h) + b`, equal
  at every extended real because sum and product are commutative.
-/
import proofs.«124498_j67946382623222_1_alg».proof.Proof.Stage0
import proofs.«124498_j67946382623222_1_alg».proof.Proof.Carry
import proofs.«124498_j67946382623222_1_alg».proof.Proof.Proj0
import proofs.«124498_j67946382623222_1_alg».proof.Proof.Close1
import proofs.«124498_j67946382623222_1_alg».proof.Proof.LibHostDense
import proofs.«124498_j67946382623222_1_alg».proof.Proof.LibGcnLayer

set_option maxRecDepth 16384

noncomputable section

namespace Cert.KernelIdeal.Layer1

open Cert.KernelIdeal Cert.KernelIdeal.Gen
open Idealize.ShloMosaic Idealize.ShloMosaic.TcCoe Idealize.SL.Sem Idealize.ShloMosaic.StableHlo
open Idealize.ShloMosaic.ValueIdx Cert.Gcn

set_option quotPrecheck false

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)

/-- The product array is the reference's `dot_general` of the same operands. -/
theorem matProd_eq_dot (a : FVec Ideal ⟨2, ![100000, 128]⟩ .f32) (w : FVec Ideal ⟨2, ![128, 64]⟩ .f32) :
    matProd a w = Cert.ReferenceIdeal.Read.val_main_v32 (F := Ideal) a w := by
  funext i
  obtain ⟨P, Q, rfl⟩ : ∃ (P : Fin 100000) (Q : Fin 64), i = ix2 P Q := ⟨i 0, i 1, eq_ix2 i⟩
  rw [matProd_apply]
  unfold Cert.ReferenceIdeal.Read.val_main_v32
  exact (Cert.LibHostDense.hostDot_plain_apply Cert.ReferenceIdeal.dot_S100000x128_S128x64_S100000x64_1_0_0_1_n_n
    rfl rfl rfl rfl rfl rfl none a w P Q).symm

/-- After the projection call: the projected features. -/
theorem W2_v32 : W2 m ρ c (Proc.devRef .tc main_v32) = Cert.ReferenceIdeal.Read.val_main_v32 (F := Ideal) a0 a1 := by
  refine (W2_arr m ρ c 2).trans ((Proj0.final (V1 m ρ) c).trans ?_)
  show matProd (M := 100000) (K := 128) (N := 64) (W1 m ρ c (Proc.devRef .tc main_arg0)) (W1 m ρ c (Proc.devRef .tc main_arg1)) = _
  rw [Carry.W1_arg0, Carry.W1_arg1]
  exact matProd_eq_dot _ _

theorem W2_v1 : W2 m ρ c (Proc.devRef .tc main_v1) = Cert.ReferenceIdeal.Read.val_main_v1 (F := Ideal) a7 :=
  (Carry.W2_v1 m ρ c).trans (Stage0.W1_v1 m ρ c)
theorem W2_v3 : W2 m ρ c (Proc.devRef .tc main_v3) = Cert.ReferenceIdeal.Read.val_main_v3 (F := Ideal) a7 :=
  (Carry.W2_v3 m ρ c).trans (Stage0.W1_v3 m ρ c)
theorem W2_v30 : W2 m ρ c (Proc.devRef .tc main_v30) = Cert.ReferenceIdeal.Read.val_main_v30 (F := Ideal) a7 :=
  (Carry.W2_v30 m ρ c).trans (Stage0.W1_v30 m ρ c)
theorem W2_v31 : W2 m ρ c (Proc.devRef .tc main_v31) = Cert.ReferenceIdeal.Read.val_main_v31 (F := Ideal) a7 :=
  (Carry.W2_v31 m ρ c).trans (Stage0.W1_v31 m ρ c)

/-- The self-loop term: the projected features scaled by the self-loop weights. -/
theorem W3_v53 : W3 m ρ c (Proc.devRef .tc main_v53)
    = mulf (F := Ideal) (s := S100000x64) (φ := .f32) (Cert.ReferenceIdeal.Read.val_main_v32 (F := Ideal) a0 a1) (Cert.ReferenceIdeal.Read.val_main_v52 (F := Ideal) a7) := by
  have h1 := W2_v32 m ρ c
  have h2 := W2_v31 m ρ c
  show StableHlo.after hostOps1 (W2 m ρ c) (Proc.devRef .tc main_v53) = _
  after_results_simp
  rw [h1, h2]
  rfl

/-- The aggregated messages: the reference's aggregate. -/
theorem W3_v50 : W3 m ρ c (Proc.devRef .tc main_v50) = Cert.ReferenceIdeal.Read.val_main_v50 (F := Ideal) a0 a1 a7 := by
  have h1 := W2_v32 m ρ c
  have h2 := W2_v1 m ρ c
  have h3 := W2_v3 m ρ c
  have h4 := W2_v30 m ρ c
  show StableHlo.after hostOps1 (W2 m ρ c) (Proc.devRef .tc main_v50) = _
  after_results_simp
  rw [h1, h2, h3, h4]
  rfl

/-- The bias laid out as a row. -/
theorem W3_v54 : W3 m ρ c (Proc.devRef .tc main_v54) = shapeCast S1x64 a2 shapeCasts_S64_S1x64 := by
  have h1 := Carry.W2_arg2 m ρ c
  show StableHlo.after hostOps1 (W2 m ρ c) (Proc.devRef .tc main_v54) = _
  after_results_simp
  rw [h1]
  rfl

/-- The closing pass on these three arrays is the reference's rectified layer. -/
theorem close_eq :
    combRelu (n := 100000) (c := 64)
      (mulf (F := Ideal) (s := S100000x64) (φ := .f32) (Cert.ReferenceIdeal.Read.val_main_v32 (F := Ideal) a0 a1) (Cert.ReferenceIdeal.Read.val_main_v52 (F := Ideal) a7))
      (Cert.ReferenceIdeal.Read.val_main_v50 (F := Ideal) a0 a1 a7) (shapeCast S1x64 a2 shapeCasts_S64_S1x64)
    = Cert.ReferenceIdeal.Read.val_main_v58 (F := Ideal) a0 a1 a2 a7 := by
  funext i
  obtain ⟨P, Q, rfl⟩ : ∃ (P : Fin 100000) (Q : Fin 64), i = ix2 P Q := ⟨i 0, i 1, eq_ix2 i⟩
  rw [combRelu_apply]
  unfold Cert.ReferenceIdeal.Read.val_main_v58 Cert.ReferenceIdeal.Read.val_main_v57 Cert.ReferenceIdeal.Read.val_main_v54 Cert.ReferenceIdeal.Read.val_main_v53 Cert.ReferenceIdeal.Read.val_main_v56 Cert.ReferenceIdeal.Read.val_main_v55
    Cert.ReferenceIdeal.Read.val_main_call0_v0 Cert.ReferenceIdeal.Read.val_main_call0_cst
  exact Cert.LibGcnLayer.layer_relu_eq _ _ _ _ _ _ _ _ _ P Q

/-- After the closing call: the first layer's output. -/
theorem W4_v55 : W4 m ρ c (Proc.devRef .tc main_v55) = Cert.ReferenceIdeal.Read.val_main_v58 (F := Ideal) a0 a1 a2 a7 := by
  refine (W4_arr m ρ c 3).trans ((Close1.final (V3 m ρ) c).trans ?_)
  show combRelu (n := 100000) (c := 64) (W3 m ρ c (Proc.devRef .tc main_v53)) (W3 m ρ c (Proc.devRef .tc main_v50))
    (W3 m ρ c (Proc.devRef .tc main_v54)) = _
  rw [W3_v53, W3_v50, W3_v54]
  exact close_eq m c

end Cert.KernelIdeal.Layer1

end
-- ==== Proof.Proj2.lean ====
/-
  The projection kernel of call 2, read as a whole array.

  The grid has twenty points; point `t` reads rows `5000 t … 5000 t + 4999` of the left operand and the whole right
  operand, multiplies them (the narrowing of both operands before the product is the identity on extended reals) and
  writes rows `5000 t … 5000 t + 4999` of the result. Every row of the result lies in exactly the block of point
  `row / 5000`, so after the last point the result array is the product of the two arrays as the call found them.
-/
import proofs.«124498_j67946382623222_1_alg».proof.Proof.Gen.KernelIdeal.Frame
import proofs.«124498_j67946382623222_1_alg».proof.Proof.LibPlainDot
import proofs.«124498_j67946382623222_1_alg».proof.Proof.MatProd
import Idealize.ShloMosaic.Lib.Pipeline.Value
import Idealize.ShloMosaic.Lib.ValueIdx

set_option maxRecDepth 16384

noncomputable section

namespace Cert.KernelIdeal.Proj2

open Cert.KernelIdeal Cert.KernelIdeal.Gen Idealize.ShloMosaic Idealize.ShloMosaic.TcCoe Idealize.SL.Sem
open Idealize.ShloMosaic.ValueIdx Cert.Gcn
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- What the body stores, at row `p` and column `q` of the block: the sum over the contracted coordinate. -/
theorem out_apply (x0 : Vec Ideal S5000x64 .f32) (x1 : Vec Ideal S64x64 .f32) (p : Fin 5000) (q : Fin 64) :
    out2_2 x0 x1 (ix2 p q) = ∑ k : Fin 64, x0 (ix2 p k) * x1 (ix2 k q) := by
  unfold out2_2
  rw [View.canon_unit_zero hz]
  simp only [View.ld_unit_zero (S := S5000x64) hz, View.ld_unit_zero (S := S64x64) hz]
  unfold k2_pay1
  simp only [shapeCast_self]
  exact Cert.LibPlainDot.matmul_plain_apply dot_S5000x64_S64x64_S5000x64_1_0_0_1_n_n rfl rfl rfl rfl rfl rfl none
    (truncf .bf16 x0 bitsLt_bf16_f32) (truncf .bf16 x1 bitsLt_bf16_f32) p q

/-- The printed block index maps over the grid: the left operand and the result move down one block of rows per point,
    the right operand stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The block's entry `j` against the product array's entry `i`, when `i` is `j` moved down `tv` blocks of rows and
    the two loaded blocks are the operands' rows and the whole right operand. -/
theorem blk_eq (x0 : Vec Ideal S5000x64 .f32) (x1 : Vec Ideal S64x64 .f32)
    (a : FVec Ideal ⟨2, ![100000, 64]⟩ .f32) (w : FVec Ideal ⟨2, ![64, 64]⟩ .f32) (tv : ℕ)
    (j : S5000x64.Idx) (i : (⟨2, ![100000, 64]⟩ : Shape).Idx)
    (hi0 : (i 0).val = tv * 5000 + (j 0).val) (hi1 : (i 1).val = (j 1).val)
    (hx0 : ∀ (y : S5000x64.Idx) (z : (⟨2, ![100000, 64]⟩ : Shape).Idx), (z 0).val = tv * 5000 + (y 0).val → (z 1).val = (y 1).val → x0 y = a z)
    (hx1 : ∀ y : S64x64.Idx, x1 y = w y) :
    out2_2 x0 x1 j = matProd a w i := by
  obtain ⟨p, q, rfl⟩ : ∃ (p : Fin 5000) (q : Fin 64), j = ix2 p q := ⟨j 0, j 1, eq_ix2 j⟩
  obtain ⟨P, Q, rfl⟩ : ∃ (P : Fin 100000) (Q : Fin 64), i = ix2 P Q := ⟨i 0, i 1, eq_ix2 i⟩
  have hQ : Q = q := Fin.ext hi1
  subst hQ
  rw [out_apply, matProd_apply]
  refine Finset.sum_congr rfl fun k _ => ?_
  rw [hx0 (ix2 p k) (ix2 P k) hi0 rfl, hx1]

/-- What point `t` writes back is block `t` of the product of the two arrays as the call found them. -/
theorem flushed_eq (c : Dev nD) (t : Fin cfg2.N) :
    (dat2 V c).flushed 2 t = ((cfg2.win 2).blk t).view.read (Elt Ideal) (matProd (M := 100000) (K := 64) (N := 64) (V c main_v55) (V c main_arg3)) := by
  show (cfg2.win 2).cut (grid2.coords t) ((dat2 V c).after 2 t) = _
  rw [after2_2]
  obtain ⟨e0, e1, e2, e3, e4, e5⟩ := idx_facts t
  funext j
  show out2_2 (iblk2 V c 0 t) (iblk2 V c 1 t) j = matProd (M := 100000) (K := 64) (N := 64) (V c main_v55) (V c main_arg3) (((cfg2.win 2).blk t).view.emb j)
  refine blk_eq (iblk2 V c 0 t) (iblk2 V c 1 t) (V c main_v55) (V c main_arg3) t.val j _ ?_ ?_ ?_ ?_
  · show win2_2.index t (0 : Fin 2) * 5000 + 1 * (j 0).val = _
    rw [e4]; omega
  · show win2_2.index t (1 : Fin 2) * 64 + 1 * (j 1).val = _
    rw [e5]; omega
  · intro y z h0 h1
    show V c main_v55 (((cfg2.win 0).blk t).view.emb y) = V c main_v55 z
    refine congrArg _ (funext fun ax => Fin.ext ?_)
    match ax with
    | ⟨0, _⟩ => show win2_0.index t (0 : Fin 2) * 5000 + 1 * (y 0).val = (z 0).val; rw [e0, h0]; omega
    | ⟨1, _⟩ => show win2_0.index t (1 : Fin 2) * 64 + 1 * (y 1).val = (z 1).val; rw [e1, h1]; omega
  · intro y
    show V c main_arg3 (((cfg2.win 1).blk t).view.emb y) = V c main_arg3 y
    refine congrArg _ (funext fun ax => Fin.ext ?_)
    match ax with
    | ⟨0, _⟩ => show win2_1.index t (0 : Fin 2) * 64 + 1 * (y 0).val = (y 0).val; rw [e2]; omega
    | ⟨1, _⟩ => show win2_1.index t (1 : Fin 2) * 64 + 1 * (y 1).val = (y 1).val; rw [e3]; omega

/-- An index of the result array is in point `t`'s block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v56).slice (win2_2.rect t)).set ↔ _
  rw [View.set_slice_whole, Rect.mem_set_unit]
  exact Iff.rfl

/-- Every index of the result array is in the block of the point `row / 5000`. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_2 _, ?_⟩
  rw [mem_blk]
  obtain ⟨e0, e1, e2, e3, e4, e5⟩ := idx_facts ⟨(i 0).val / 5000, by rw [hN]; omega⟩
  intro a
  match a with
  | ⟨0, _⟩ =>
    show win2_2.index _ (0 : Fin 2) * 5000 ≤ (i 0).val ∧ (i 0).val < win2_2.index _ (0 : Fin 2) * 5000 + 5000
    rw [e4]; show (i 0).val / 5000 * 5000 ≤ (i 0).val ∧ (i 0).val < (i 0).val / 5000 * 5000 + 5000; omega
  | ⟨1, _⟩ =>
    show win2_2.index _ (1 : Fin 2) * 64 ≤ (i 1).val ∧ (i 1).val < win2_2.index _ (1 : Fin 2) * 64 + 64
    rw [e5]; omega

/-- After the call the result array is the product of the two operand arrays as the call found them. -/
theorem final (c : Dev nD) : (dat2 V c).arrAt 2 cfg2.N = matProd (M := 100000) (K := 64) (N := 64) (V c main_v55) (V c main_arg3) :=
  (dat2 V c).arrAt_eq_of_cover 2 (matProd (M := 100000) (K := 64) (N := 64) (V c main_v55) (V c main_arg3)) (fun t _ => flushed_eq V c t) cover

end Cert.KernelIdeal.Proj2

end
-- ==== Proof.Close3.lean ====
/-
  The closing kernel of call 3 (self-loop term + aggregate + bias, rectified), read as a whole array.

  The grid has twenty points; point `t` reads rows `5000 t … 5000 t + 4999` of the two node arrays and the one bias row,
  adds them entry by entry (the bias row repeated over the block's rows), takes the maximum with zero and writes rows
  `5000 t … 5000 t + 4999` of the result. Every row of the result lies in exactly the block of point `row / 5000`, so after
  the last point the result array is that function of the three arrays as the call found them.
-/
import proofs.«124498_j67946382623222_1_alg».proof.Proof.Gen.KernelIdeal.Frame
import proofs.«124498_j67946382623222_1_alg».proof.Proof.Combine
import Idealize.ShloMosaic.Lib.Pipeline.Value
import Idealize.ShloMosaic.Lib.ValueIdx
import Idealize.ShloMosaic.Lib.ValueLayout

set_option maxRecDepth 16384

noncomputable section

namespace Cert.KernelIdeal.Close3

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the body stores, at row `p` and column `q` of the block. -/
theorem out_apply (x0 x1 : Vec Ideal S5000x64 .f32) (x2 : Vec Ideal S1x64 .f32) (p : Fin 5000) (q : Fin 64) :
    out3_3 x0 x1 x2 (ix2 p q)
      = max ((x0 (ix2 p q) + x1 (ix2 p q)) + x2 (ix2 (0 : Fin 1) q)) (Ideal.ofBits .f32 0x00000000#32) := by
  unfold out3_3
  rw [View.canon_unit_zero hz]
  simp only [View.ld_unit_zero (S := S5000x64) hz, View.ld_unit_zero (S := S1x64) hz]
  unfold k3_pay1
  simp only [shapeCast_self]
  rw [maximumf_apply, addf_apply, addf_apply, broadcastTo_1b_ab_apply, broadcast_apply]
  rfl

/-- The printed block index maps over the grid: the two node arrays and the result move down one block of rows per
    point, the bias row stays. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The block's entry `j` against the whole-array function's entry `i`, when `i` is `j` moved down `tv` blocks of rows
    and the loaded blocks are the two arrays' rows and the whole bias row. -/
theorem blk_eq (x0 x1 : Vec Ideal S5000x64 .f32) (x2 : Vec Ideal S1x64 .f32)
    (hs agg : FVec Ideal ⟨2, ![100000, 64]⟩ .f32) (brow : FVec Ideal ⟨2, ![1, 64]⟩ .f32) (tv : ℕ)
    (j : S5000x64.Idx) (i : (⟨2, ![100000, 64]⟩ : Shape).Idx)
    (hi0 : (i 0).val = tv * 5000 + (j 0).val) (hi1 : (i 1).val = (j 1).val)
    (hx0 : ∀ (y : S5000x64.Idx) (z : (⟨2, ![100000, 64]⟩ : Shape).Idx), (z 0).val = tv * 5000 + (y 0).val → (z 1).val = (y 1).val → x0 y = hs z)
    (hx1 : ∀ (y : S5000x64.Idx) (z : (⟨2, ![100000, 64]⟩ : Shape).Idx), (z 0).val = tv * 5000 + (y 0).val → (z 1).val = (y 1).val → x1 y = agg z)
    (hx2 : ∀ y : S1x64.Idx, x2 y = brow y) :
    out3_3 x0 x1 x2 j = combRelu hs agg brow i := by
  obtain ⟨p, q, rfl⟩ : ∃ (p : Fin 5000) (q : Fin 64), j = ix2 p q := ⟨j 0, j 1, eq_ix2 j⟩
  obtain ⟨P, Q, rfl⟩ : ∃ (P : Fin 100000) (Q : Fin 64), i = ix2 P Q := ⟨i 0, i 1, eq_ix2 i⟩
  have hQ : Q = q := Fin.ext hi1
  subst hQ
  rw [out_apply, combRelu_apply, hx0 (ix2 p Q) (ix2 P Q) hi0 rfl, hx1 (ix2 p Q) (ix2 P Q) hi0 rfl, hx2]

/-- What point `t` writes back is block `t` of the whole-array function of the three arrays as the call found them. -/
theorem flushed_eq (c : Dev nD) (t : Fin cfg3.N) :
    (dat3 V c).flushed 3 t = ((cfg3.win 3).blk t).view.read (Elt Ideal) (combRelu (n := 100000) (c := 64) (V c main_v77) (V c main_v74) (V c main_v78)) := by
  show (cfg3.win 3).cut (grid3.coords t) ((dat3 V c).after 3 t) = _
  rw [after3_3]
  obtain ⟨e0, e1, e2, e3, e4, e5, e6, e7⟩ := idx_facts t
  funext j
  show out3_3 (iblk3 V c 0 t) (iblk3 V c 1 t) (iblk3 V c 2 t) j
    = combRelu (n := 100000) (c := 64) (V c main_v77) (V c main_v74) (V c main_v78) (((cfg3.win 3).blk t).view.emb j)
  refine blk_eq (iblk3 V c 0 t) (iblk3 V c 1 t) (iblk3 V c 2 t) (V c main_v77) (V c main_v74) (V c main_v78) t.val j _ ?_ ?_ ?_ ?_ ?_
  · show win3_3.index t (0 : Fin 2) * 5000 + 1 * (j 0).val = _
    rw [e6]; omega
  · show win3_3.index t (1 : Fin 2) * 64 + 1 * (j 1).val = _
    rw [e7]; omega
  · intro y z h0 h1
    show V c main_v77 (((cfg3.win 0).blk t).view.emb y) = V c main_v77 z
    refine congrArg _ (funext fun ax => Fin.ext ?_)
    match ax with
    | ⟨0, _⟩ => show win3_0.index t (0 : Fin 2) * 5000 + 1 * (y 0).val = (z 0).val; rw [e0, h0]; omega
    | ⟨1, _⟩ => show win3_0.index t (1 : Fin 2) * 64 + 1 * (y 1).val = (z 1).val; rw [e1, h1]; omega
  · intro y z h0 h1
    show V c main_v74 (((cfg3.win 1).blk t).view.emb y) = V c main_v74 z
    refine congrArg _ (funext fun ax => Fin.ext ?_)
    match ax with
    | ⟨0, _⟩ => show win3_1.index t (0 : Fin 2) * 5000 + 1 * (y 0).val = (z 0).val; rw [e2, h0]; omega
    | ⟨1, _⟩ => show win3_1.index t (1 : Fin 2) * 64 + 1 * (y 1).val = (z 1).val; rw [e3, h1]; omega
  · intro y
    show V c main_v78 (((cfg3.win 2).blk t).view.emb y) = V c main_v78 y
    refine congrArg _ (funext fun ax => Fin.ext ?_)
    match ax with
    | ⟨0, _⟩ => show win3_2.index t (0 : Fin 2) * 1 + 1 * (y 0).val = (y 0).val; rw [e4]; omega
    | ⟨1, _⟩ => show win3_2.index t (1 : Fin 2) * 64 + 1 * (y 1).val = (y 1).val; rw [e5]; omega

/-- An index of the result array is in point `t`'s block iff each coordinate is in the block's range on its axis. -/
theorem mem_blk (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v79).slice (win3_3.rect t)).set ↔ _
  rw [View.set_slice_whole, Rect.mem_set_unit]
  exact Iff.rfl

/-- Every index of the result array is in the block of the point `row / 5000`. -/
theorem cover (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 20 := N_3
  refine ⟨⟨(i 0).val / 5000, by rw [hN]; omega⟩, flush3_3 _, ?_⟩
  rw [mem_blk]
  obtain ⟨e0, e1, e2, e3, e4, e5, e6, e7⟩ := idx_facts ⟨(i 0).val / 5000, by rw [hN]; omega⟩
  intro a
  match a with
  | ⟨0, _⟩ =>
    show win3_3.index _ (0 : Fin 2) * 5000 ≤ (i 0).val ∧ (i 0).val < win3_3.index _ (0 : Fin 2) * 5000 + 5000
    rw [e6]; show (i 0).val / 5000 * 5000 ≤ (i 0).val ∧ (i 0).val < (i 0).val / 5000 * 5000 + 5000; omega
  | ⟨1, _⟩ =>
    show win3_3.index _ (1 : Fin 2) * 64 ≤ (i 1).val ∧ (i 1).val < win3_3.index _ (1 : Fin 2) * 64 + 64
    rw [e7]; omega

/-- After the call the result array is the rectified sum of the three arrays as the call found them. -/
theorem final (c : Dev nD) : (dat3 V c).arrAt 3 cfg3.N = combRelu (n := 100000) (c := 64) (V c main_v77) (V c main_v74) (V c main_v78) :=
  (dat3 V c).arrAt_eq_of_cover 3 (combRelu (n := 100000) (c := 64) (V c main_v77) (V c main_v74) (V c main_v78)) (fun t _ => flushed_eq V c t) cover

end Cert.KernelIdeal.Close3

end
-- ==== Proof.Layer2.lean ====
/-
  The second layer of the kernel program, boundary by boundary, against the reference's stages.

  As in the first layer: the projection call leaves the product of the first layer's output and the second weight
  matrix (the reference's `dot_general`: the same sum), the host stretch builds the aggregate and the self-loop term by
  the reference's own operations, and the closing call's `(h · s + agg) + b`, rectified, is the reference's
  `(agg + s · h) + b`, rectified, by commutativity of sum and product on the extended reals.
-/
import proofs.«124498_j67946382623222_1_alg».proof.Proof.Layer1
import proofs.«124498_j67946382623222_1_alg».proof.Proof.Proj2
import proofs.«124498_j67946382623222_1_alg».proof.Proof.Close3

set_option maxRecDepth 16384

noncomputable section

namespace Cert.KernelIdeal.Layer2

open Cert.KernelIdeal Cert.KernelIdeal.Gen
open Idealize.ShloMosaic Idealize.ShloMosaic.TcCoe Idealize.SL.Sem Idealize.ShloMosaic.StableHlo
open Idealize.ShloMosaic.ValueIdx Cert.Gcn

set_option quotPrecheck false

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)

/-- The product of a node array by a square weight matrix is the reference's `dot_general` of the same operands. -/
theorem matProd_eq_dot (a : FVec Ideal ⟨2, ![100000, 64]⟩ .f32) (w : FVec Ideal ⟨2, ![64, 64]⟩ .f32) :
    matProd a w = Host.dotGeneral (F := Ideal) Cert.ReferenceIdeal.dot_S100000x64_S64x64_S100000x64_1_0_0_1_n_n none a w := by
  funext i
  obtain ⟨P, Q, rfl⟩ : ∃ (P : Fin 100000) (Q : Fin 64), i = ix2 P Q := ⟨i 0, i 1, eq_ix2 i⟩
  rw [matProd_apply]
  exact (Cert.LibHostDense.hostDot_plain_apply Cert.ReferenceIdeal.dot_S100000x64_S64x64_S100000x64_1_0_0_1_n_n
    rfl rfl rfl rfl rfl rfl none a w P Q).symm

/-- After the projection call: the projected features. -/
theorem W5_v56 : W5 m ρ c (Proc.devRef .tc main_v56) = Cert.ReferenceIdeal.Read.val_main_v59 (F := Ideal) a0 a1 a2 a3 a7 := by
  refine (W5_arr m ρ c 2).trans ((Proj2.final (V4 m ρ) c).trans ?_)
  show matProd (M := 100000) (K := 64) (N := 64) (W4 m ρ c (Proc.devRef .tc main_v55)) (W4 m ρ c (Proc.devRef .tc main_arg3)) = _
  rw [Layer1.W4_v55, Carry.W4_arg3]
  exact matProd_eq_dot _ _

theorem W5_v1 : W5 m ρ c (Proc.devRef .tc main_v1) = Cert.ReferenceIdeal.Read.val_main_v1 (F := Ideal) a7 :=
  (Carry.W5_v1 m ρ c).trans (Stage0.W1_v1 m ρ c)
theorem W5_v3 : W5 m ρ c (Proc.devRef .tc main_v3) = Cert.ReferenceIdeal.Read.val_main_v3 (F := Ideal) a7 :=
  (Carry.W5_v3 m ρ c).trans (Stage0.W1_v3 m ρ c)
theorem W5_v30 : W5 m ρ c (Proc.devRef .tc main_v30) = Cert.ReferenceIdeal.Read.val_main_v30 (F := Ideal) a7 :=
  (Carry.W5_v30 m ρ c).trans (Stage0.W1_v30 m ρ c)
theorem W5_v31 : W5 m ρ c (Proc.devRef .tc main_v31) = Cert.ReferenceIdeal.Read.val_main_v31 (F := Ideal) a7 :=
  (Carry.W5_v31 m ρ c).trans (Stage0.W1_v31 m ρ c)

/-- The self-loop term: the projected features scaled by the self-loop weights. -/
theorem W6_v77 : W6 m ρ c (Proc.devRef .tc main_v77)
    = mulf (F := Ideal) (s := S100000x64) (φ := .f32) (Cert.ReferenceIdeal.Read.val_main_v59 (F := Ideal) a0 a1 a2 a3 a7) (Cert.ReferenceIdeal.Read.val_main_v79 (F := Ideal) a7) := by
  have h1 := W5_v56 m ρ c
  have h2 := W5_v31 m ρ c
  show StableHlo.after hostOps3 (W5 m ρ c) (Proc.devRef .tc main_v77) = _
  after_results_simp
  rw [h1, h2]
  rfl

/-- The aggregated messages: the reference's aggregate. -/
theorem W6_v74 : W6 m ρ c (Proc.devRef .tc main_v74) = Cert.ReferenceIdeal.Read.val_main_v77 (F := Ideal) a0 a1 a2 a3 a7 := by
  have h1 := W5_v56 m ρ c
  have h2 := W5_v1 m ρ c
  have h3 := W5_v3 m ρ c
  have h4 := W5_v30 m ρ c
  show StableHlo.after hostOps3 (W5 m ρ c) (Proc.devRef .tc main_v74) = _
  after_results_simp
  rw [h1, h2, h3, h4]
  rfl

/-- The bias laid out as a row. -/
theorem W6_v78 : W6 m ρ c (Proc.devRef .tc main_v78) = shapeCast S1x64 a4 shapeCasts_S64_S1x64 := by
  have h1 := Carry.W5_arg4 m ρ c
  show StableHlo.after hostOps3 (W5 m ρ c) (Proc.devRef .tc main_v78) = _
  after_results_simp
  rw [h1]
  rfl

/-- The closing pass on these three arrays is the reference's rectified layer. -/
theorem close_eq :
    combRelu (n := 100000) (c := 64)
      (mulf (F := Ideal) (s := S100000x64) (φ := .f32) (Cert.ReferenceIdeal.Read.val_main_v59 (F := Ideal) a0 a1 a2 a3 a7) (Cert.ReferenceIdeal.Read.val_main_v79 (F := Ideal) a7))
      (Cert.ReferenceIdeal.Read.val_main_v77 (F := Ideal) a0 a1 a2 a3 a7) (shapeCast S1x64 a4 shapeCasts_S64_S1x64)
    = Cert.ReferenceIdeal.Read.val_main_v85 (F := Ideal) a0 a1 a2 a3 a4 a7 := by
  funext i
  obtain ⟨P, Q, rfl⟩ : ∃ (P : Fin 100000) (Q : Fin 64), i = ix2 P Q := ⟨i 0, i 1, eq_ix2 i⟩
  rw [combRelu_apply]
  unfold Cert.ReferenceIdeal.Read.val_main_v85 Cert.ReferenceIdeal.Read.val_main_v84 Cert.ReferenceIdeal.Read.val_main_v81 Cert.ReferenceIdeal.Read.val_main_v80 Cert.ReferenceIdeal.Read.val_main_v83 Cert.ReferenceIdeal.Read.val_main_v82
    Cert.ReferenceIdeal.Read.val_main_call1_v0 Cert.ReferenceIdeal.Read.val_main_call1_cst
  exact Cert.LibGcnLayer.layer_relu_eq _ _ _ _ _ _ _ _ _ P Q

/-- After the closing call: the second layer's output. -/
theorem W7_v79 : W7 m ρ c (Proc.devRef .tc main_v79) = Cert.ReferenceIdeal.Read.val_main_v85 (F := Ideal) a0 a1 a2 a3 a4 a7 := by
  refine (W7_arr m ρ c 3).trans ((Close3.final (V6 m ρ) c).trans ?_)
  show combRelu (n := 100000) (c := 64) (W6 m ρ c (Proc.devRef .tc main_v77)) (W6 m ρ c (Proc.devRef .tc main_v74))
    (W6 m ρ c (Proc.devRef .tc main_v78)) = _
  rw [W6_v77, W6_v74, W6_v78]
  exact close_eq m c

end Cert.KernelIdeal.Layer2

end
-- ==== Proof.Proj4.lean ====
/-
  The projection kernel of call 4, read as a whole array.

  The grid has twenty points; point `t` reads rows `5000 t … 5000 t + 4999` of the left operand and the whole right
  operand, multiplies them (the narrowing of both operands before the product is the identity on extended reals) and
  writes rows `5000 t … 5000 t + 4999` of the result. Every row of the result lies in exactly the block of point
  `row / 5000`, so after the last point the result array is the product of the two arrays as the call found them.
-/
import proofs.«124498_j67946382623222_1_alg».proof.Proof.Gen.KernelIdeal.Frame
import proofs.«124498_j67946382623222_1_alg».proof.Proof.LibPlainDot
import proofs.«124498_j67946382623222_1_alg».proof.Proof.MatProd
import Idealize.ShloMosaic.Lib.Pipeline.Value
import Idealize.ShloMosaic.Lib.ValueIdx

set_option maxRecDepth 16384

noncomputable section

namespace Cert.KernelIdeal.Proj4

open Cert.KernelIdeal Cert.KernelIdeal.Gen Idealize.ShloMosaic Idealize.ShloMosaic.TcCoe Idealize.SL.Sem
open Idealize.ShloMosaic.ValueIdx Cert.Gcn
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- What the body stores, at row `p` and column `q` of the block: the sum over the contracted coordinate. -/
theorem out_apply (x0 : Vec Ideal S5000x64 .f32) (x1 : Vec Ideal S64x64 .f32) (p : Fin 5000) (q : Fin 64) :
    out4_2 x0 x1 (ix2 p q) = ∑ k : Fin 64, x0 (ix2 p k) * x1 (ix2 k q) := by
  unfold out4_2
  rw [View.canon_unit_zero hz]
  simp only [View.ld_unit_zero (S := S5000x64) hz, View.ld_unit_zero (S := S64x64) hz]
  unfold k4_pay1
  simp only [shapeCast_self]
  exact Cert.LibPlainDot.matmul_plain_apply dot_S5000x64_S64x64_S5000x64_1_0_0_1_n_n rfl rfl rfl rfl rfl rfl none
    (truncf .bf16 x0 bitsLt_bf16_f32) (truncf .bf16 x1 bitsLt_bf16_f32) p q

/-- The printed block index maps over the grid: the left operand and the result move down one block of rows per point,
    the right operand stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The block's entry `j` against the product array's entry `i`, when `i` is `j` moved down `tv` blocks of rows and
    the two loaded blocks are the operands' rows and the whole right operand. -/
theorem blk_eq (x0 : Vec Ideal S5000x64 .f32) (x1 : Vec Ideal S64x64 .f32)
    (a : FVec Ideal ⟨2, ![100000, 64]⟩ .f32) (w : FVec Ideal ⟨2, ![64, 64]⟩ .f32) (tv : ℕ)
    (j : S5000x64.Idx) (i : (⟨2, ![100000, 64]⟩ : Shape).Idx)
    (hi0 : (i 0).val = tv * 5000 + (j 0).val) (hi1 : (i 1).val = (j 1).val)
    (hx0 : ∀ (y : S5000x64.Idx) (z : (⟨2, ![100000, 64]⟩ : Shape).Idx), (z 0).val = tv * 5000 + (y 0).val → (z 1).val = (y 1).val → x0 y = a z)
    (hx1 : ∀ y : S64x64.Idx, x1 y = w y) :
    out4_2 x0 x1 j = matProd a w i := by
  obtain ⟨p, q, rfl⟩ : ∃ (p : Fin 5000) (q : Fin 64), j = ix2 p q := ⟨j 0, j 1, eq_ix2 j⟩
  obtain ⟨P, Q, rfl⟩ : ∃ (P : Fin 100000) (Q : Fin 64), i = ix2 P Q := ⟨i 0, i 1, eq_ix2 i⟩
  have hQ : Q = q := Fin.ext hi1
  subst hQ
  rw [out_apply, matProd_apply]
  refine Finset.sum_congr rfl fun k _ => ?_
  rw [hx0 (ix2 p k) (ix2 P k) hi0 rfl, hx1]

/-- What point `t` writes back is block `t` of the product of the two arrays as the call found them. -/
theorem flushed_eq (c : Dev nD) (t : Fin cfg4.N) :
    (dat4 V c).flushed 2 t = ((cfg4.win 2).blk t).view.read (Elt Ideal) (matProd (M := 100000) (K := 64) (N := 64) (V c main_v79) (V c main_arg5)) := by
  show (cfg4.win 2).cut (grid4.coords t) ((dat4 V c).after 2 t) = _
  rw [after4_2]
  obtain ⟨e0, e1, e2, e3, e4, e5⟩ := idx_facts t
  funext j
  show out4_2 (iblk4 V c 0 t) (iblk4 V c 1 t) j = matProd (M := 100000) (K := 64) (N := 64) (V c main_v79) (V c main_arg5) (((cfg4.win 2).blk t).view.emb j)
  refine blk_eq (iblk4 V c 0 t) (iblk4 V c 1 t) (V c main_v79) (V c main_arg5) t.val j _ ?_ ?_ ?_ ?_
  · show win4_2.index t (0 : Fin 2) * 5000 + 1 * (j 0).val = _
    rw [e4]; omega
  · show win4_2.index t (1 : Fin 2) * 64 + 1 * (j 1).val = _
    rw [e5]; omega
  · intro y z h0 h1
    show V c main_v79 (((cfg4.win 0).blk t).view.emb y) = V c main_v79 z
    refine congrArg _ (funext fun ax => Fin.ext ?_)
    match ax with
    | ⟨0, _⟩ => show win4_0.index t (0 : Fin 2) * 5000 + 1 * (y 0).val = (z 0).val; rw [e0, h0]; omega
    | ⟨1, _⟩ => show win4_0.index t (1 : Fin 2) * 64 + 1 * (y 1).val = (z 1).val; rw [e1, h1]; omega
  · intro y
    show V c main_arg5 (((cfg4.win 1).blk t).view.emb y) = V c main_arg5 y
    refine congrArg _ (funext fun ax => Fin.ext ?_)
    match ax with
    | ⟨0, _⟩ => show win4_1.index t (0 : Fin 2) * 64 + 1 * (y 0).val = (y 0).val; rw [e2]; omega
    | ⟨1, _⟩ => show win4_1.index t (1 : Fin 2) * 64 + 1 * (y 1).val = (y 1).val; rw [e3]; omega

/-- An index of the result array is in point `t`'s block iff each coordinate is in the block's range on its axis. -/
theorem mem_blk (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v80).slice (win4_2.rect t)).set ↔ _
  rw [View.set_slice_whole, Rect.mem_set_unit]
  exact Iff.rfl

/-- Every index of the result array is in the block of the point `row / 5000`. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 20 := N_4
  refine ⟨⟨(i 0).val / 5000, by rw [hN]; omega⟩, flush4_2 _, ?_⟩
  rw [mem_blk]
  obtain ⟨e0, e1, e2, e3, e4, e5⟩ := idx_facts ⟨(i 0).val / 5000, by rw [hN]; omega⟩
  intro a
  match a with
  | ⟨0, _⟩ =>
    show win4_2.index _ (0 : Fin 2) * 5000 ≤ (i 0).val ∧ (i 0).val < win4_2.index _ (0 : Fin 2) * 5000 + 5000
    rw [e4]; show (i 0).val / 5000 * 5000 ≤ (i 0).val ∧ (i 0).val < (i 0).val / 5000 * 5000 + 5000; omega
  | ⟨1, _⟩ =>
    show win4_2.index _ (1 : Fin 2) * 64 ≤ (i 1).val ∧ (i 1).val < win4_2.index _ (1 : Fin 2) * 64 + 64
    rw [e5]; omega

/-- After the call the result array is the product of the two operand arrays as the call found them. -/
theorem final (c : Dev nD) : (dat4 V c).arrAt 2 cfg4.N = matProd (M := 100000) (K := 64) (N := 64) (V c main_v79) (V c main_arg5) :=
  (dat4 V c).arrAt_eq_of_cover 2 (matProd (M := 100000) (K := 64) (N := 64) (V c main_v79) (V c main_arg5)) (fun t _ => flushed_eq V c t) cover

end Cert.KernelIdeal.Proj4

end
-- ==== Proof.Close5.lean ====
/-
  The closing kernel of call 5 (self-loop term + aggregate + bias, not rectified), read as a whole array.

  The grid has twenty points; point `t` reads rows `5000 t … 5000 t + 4999` of the two node arrays and the one bias row,
  adds them entry by entry (the bias row repeated over the block's rows) and writes rows
  `5000 t … 5000 t + 4999` of the result. Every row of the result lies in exactly the block of point `row / 5000`, so after
  the last point the result array is that function of the three arrays as the call found them.
-/
import proofs.«124498_j67946382623222_1_alg».proof.Proof.Gen.KernelIdeal.Frame
import proofs.«124498_j67946382623222_1_alg».proof.Proof.Combine
import Idealize.ShloMosaic.Lib.Pipeline.Value
import Idealize.ShloMosaic.Lib.ValueIdx
import Idealize.ShloMosaic.Lib.ValueLayout

set_option maxRecDepth 16384

noncomputable section

namespace Cert.KernelIdeal.Close5

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the body stores, at row `p` and column `q` of the block. -/
theorem out_apply (x0 x1 : Vec Ideal S5000x64 .f32) (x2 : Vec Ideal S1x64 .f32) (p : Fin 5000) (q : Fin 64) :
    out5_3 x0 x1 x2 (ix2 p q)
      = (x0 (ix2 p q) + x1 (ix2 p q)) + x2 (ix2 (0 : Fin 1) q) := by
  unfold out5_3
  rw [View.canon_unit_zero hz]
  simp only [View.ld_unit_zero (S := S5000x64) hz, View.ld_unit_zero (S := S1x64) hz]
  unfold k5_pay1
  simp only [shapeCast_self]
  rw [addf_apply, addf_apply, broadcastTo_1b_ab_apply]

/-- The printed block index maps over the grid: the two node arrays and the result move down one block of rows per
    point, the bias row stays. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The block's entry `j` against the whole-array function's entry `i`, when `i` is `j` moved down `tv` blocks of rows
    and the loaded blocks are the two arrays' rows and the whole bias row. -/
theorem blk_eq (x0 x1 : Vec Ideal S5000x64 .f32) (x2 : Vec Ideal S1x64 .f32)
    (hs agg : FVec Ideal ⟨2, ![100000, 64]⟩ .f32) (brow : FVec Ideal ⟨2, ![1, 64]⟩ .f32) (tv : ℕ)
    (j : S5000x64.Idx) (i : (⟨2, ![100000, 64]⟩ : Shape).Idx)
    (hi0 : (i 0).val = tv * 5000 + (j 0).val) (hi1 : (i 1).val = (j 1).val)
    (hx0 : ∀ (y : S5000x64.Idx) (z : (⟨2, ![100000, 64]⟩ : Shape).Idx), (z 0).val = tv * 5000 + (y 0).val → (z 1).val = (y 1).val → x0 y = hs z)
    (hx1 : ∀ (y : S5000x64.Idx) (z : (⟨2, ![100000, 64]⟩ : Shape).Idx), (z 0).val = tv * 5000 + (y 0).val → (z 1).val = (y 1).val → x1 y = agg z)
    (hx2 : ∀ y : S1x64.Idx, x2 y = brow y) :
    out5_3 x0 x1 x2 j = comb hs agg brow i := by
  obtain ⟨p, q, rfl⟩ : ∃ (p : Fin 5000) (q : Fin 64), j = ix2 p q := ⟨j 0, j 1, eq_ix2 j⟩
  obtain ⟨P, Q, rfl⟩ : ∃ (P : Fin 100000) (Q : Fin 64), i = ix2 P Q := ⟨i 0, i 1, eq_ix2 i⟩
  have hQ : Q = q := Fin.ext hi1
  subst hQ
  rw [out_apply, comb_apply, hx0 (ix2 p Q) (ix2 P Q) hi0 rfl, hx1 (ix2 p Q) (ix2 P Q) hi0 rfl, hx2]

/-- What point `t` writes back is block `t` of the whole-array function of the three arrays as the call found them. -/
theorem flushed_eq (c : Dev nD) (t : Fin cfg5.N) :
    (dat5 V c).flushed 3 t = ((cfg5.win 3).blk t).view.read (Elt Ideal) (comb (n := 100000) (c := 64) (V c main_v101) (V c main_v98) (V c main_v102)) := by
  show (cfg5.win 3).cut (grid5.coords t) ((dat5 V c).after 3 t) = _
  rw [after5_3]
  obtain ⟨e0, e1, e2, e3, e4, e5, e6, e7⟩ := idx_facts t
  funext j
  show out5_3 (iblk5 V c 0 t) (iblk5 V c 1 t) (iblk5 V c 2 t) j
    = comb (n := 100000) (c := 64) (V c main_v101) (V c main_v98) (V c main_v102) (((cfg5.win 3).blk t).view.emb j)
  refine blk_eq (iblk5 V c 0 t) (iblk5 V c 1 t) (iblk5 V c 2 t) (V c main_v101) (V c main_v98) (V c main_v102) t.val j _ ?_ ?_ ?_ ?_ ?_
  · show win5_3.index t (0 : Fin 2) * 5000 + 1 * (j 0).val = _
    rw [e6]; omega
  · show win5_3.index t (1 : Fin 2) * 64 + 1 * (j 1).val = _
    rw [e7]; omega
  · intro y z h0 h1
    show V c main_v101 (((cfg5.win 0).blk t).view.emb y) = V c main_v101 z
    refine congrArg _ (funext fun ax => Fin.ext ?_)
    match ax with
    | ⟨0, _⟩ => show win5_0.index t (0 : Fin 2) * 5000 + 1 * (y 0).val = (z 0).val; rw [e0, h0]; omega
    | ⟨1, _⟩ => show win5_0.index t (1 : Fin 2) * 64 + 1 * (y 1).val = (z 1).val; rw [e1, h1]; omega
  · intro y z h0 h1
    show V c main_v98 (((cfg5.win 1).blk t).view.emb y) = V c main_v98 z
    refine congrArg _ (funext fun ax => Fin.ext ?_)
    match ax with
    | ⟨0, _⟩ => show win5_1.index t (0 : Fin 2) * 5000 + 1 * (y 0).val = (z 0).val; rw [e2, h0]; omega
    | ⟨1, _⟩ => show win5_1.index t (1 : Fin 2) * 64 + 1 * (y 1).val = (z 1).val; rw [e3, h1]; omega
  · intro y
    show V c main_v102 (((cfg5.win 2).blk t).view.emb y) = V c main_v102 y
    refine congrArg _ (funext fun ax => Fin.ext ?_)
    match ax with
    | ⟨0, _⟩ => show win5_2.index t (0 : Fin 2) * 1 + 1 * (y 0).val = (y 0).val; rw [e4]; omega
    | ⟨1, _⟩ => show win5_2.index t (1 : Fin 2) * 64 + 1 * (y 1).val = (y 1).val; rw [e5]; omega

/-- An index of the result array is in point `t`'s block iff each coordinate is in the block's range on its axis. -/
theorem mem_blk (t : Fin cfg5.N) (i : S100000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v103).slice (win5_3.rect t)).set ↔ _
  rw [View.set_slice_whole, Rect.mem_set_unit]
  exact Iff.rfl

/-- Every index of the result array is in the block of the point `row / 5000`. -/
theorem cover (i : S100000x64.Idx) : ∃ t : Fin cfg5.N, (cfg5.win 3).flush t = true ∧ i ∈ ((cfg5.win 3).blk t).view.set := by
  have hi0 : (i 0).val < 100000 := (i 0).isLt
  have hi1 : (i 1).val < 64 := (i 1).isLt
  have hN : cfg5.N = 20 := N_5
  refine ⟨⟨(i 0).val / 5000, by rw [hN]; omega⟩, flush5_3 _, ?_⟩
  rw [mem_blk]
  obtain ⟨e0, e1, e2, e3, e4, e5, e6, e7⟩ := idx_facts ⟨(i 0).val / 5000, by rw [hN]; omega⟩
  intro a
  match a with
  | ⟨0, _⟩ =>
    show win5_3.index _ (0 : Fin 2) * 5000 ≤ (i 0).val ∧ (i 0).val < win5_3.index _ (0 : Fin 2) * 5000 + 5000
    rw [e6]; show (i 0).val / 5000 * 5000 ≤ (i 0).val ∧ (i 0).val < (i 0).val / 5000 * 5000 + 5000; omega
  | ⟨1, _⟩ =>
    show win5_3.index _ (1 : Fin 2) * 64 ≤ (i 1).val ∧ (i 1).val < win5_3.index _ (1 : Fin 2) * 64 + 64
    rw [e7]; omega

/-- After the call the result array is the sum of the three arrays as the call found them. -/
theorem final (c : Dev nD) : (dat5 V c).arrAt 3 cfg5.N = comb (n := 100000) (c := 64) (V c main_v101) (V c main_v98) (V c main_v102) :=
  (dat5 V c).arrAt_eq_of_cover 3 (comb (n := 100000) (c := 64) (V c main_v101) (V c main_v98) (V c main_v102)) (fun t _ => flushed_eq V c t) cover

end Cert.KernelIdeal.Close5

end
-- ==== Proof.Layer3.lean ====
/-
  The third layer of the kernel program, boundary by boundary, against the reference's stages; it is not rectified.

  The projection call leaves the product of the second layer's output and the third weight matrix (the reference's
  `dot_general`: the same sum), the host stretch builds the aggregate and the self-loop term by the reference's own
  operations, and the closing call's `(h · s + agg) + b` is the reference's `(agg + s · h) + b` by commutativity of sum and
  product on the extended reals. What the closing call leaves is the program's result.
-/
import proofs.«124498_j67946382623222_1_alg».proof.Proof.Layer2
import proofs.«124498_j67946382623222_1_alg».proof.Proof.Proj4
import proofs.«124498_j67946382623222_1_alg».proof.Proof.Close5

set_option maxRecDepth 16384

noncomputable section

namespace Cert.KernelIdeal.Layer3

open Cert.KernelIdeal Cert.KernelIdeal.Gen
open Idealize.ShloMosaic Idealize.ShloMosaic.TcCoe Idealize.SL.Sem Idealize.ShloMosaic.StableHlo
open Idealize.ShloMosaic.ValueIdx Cert.Gcn

set_option quotPrecheck false

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)

/-- After the projection call: the projected features. -/
theorem W8_v80 : W8 m ρ c (Proc.devRef .tc main_v80) = Cert.ReferenceIdeal.Read.val_main_v86 (F := Ideal) a0 a1 a2 a3 a4 a5 a7 := by
  refine (W8_arr m ρ c 2).trans ((Proj4.final (V7 m ρ) c).trans ?_)
  show matProd (M := 100000) (K := 64) (N := 64) (W7 m ρ c (Proc.devRef .tc main_v79)) (W7 m ρ c (Proc.devRef .tc main_arg5)) = _
  rw [Layer2.W7_v79, Carry.W7_arg5]
  exact Layer2.matProd_eq_dot _ _

theorem W8_v1 : W8 m ρ c (Proc.devRef .tc main_v1) = Cert.ReferenceIdeal.Read.val_main_v1 (F := Ideal) a7 :=
  (Carry.W8_v1 m ρ c).trans (Stage0.W1_v1 m ρ c)
theorem W8_v3 : W8 m ρ c (Proc.devRef .tc main_v3) = Cert.ReferenceIdeal.Read.val_main_v3 (F := Ideal) a7 :=
  (Carry.W8_v3 m ρ c).trans (Stage0.W1_v3 m ρ c)
theorem W8_v30 : W8 m ρ c (Proc.devRef .tc main_v30) = Cert.ReferenceIdeal.Read.val_main_v30 (F := Ideal) a7 :=
  (Carry.W8_v30 m ρ c).trans (Stage0.W1_v30 m ρ c)
theorem W8_v31 : W8 m ρ c (Proc.devRef .tc main_v31) = Cert.ReferenceIdeal.Read.val_main_v31 (F := Ideal) a7 :=
  (Carry.W8_v31 m ρ c).trans (Stage0.W1_v31 m ρ c)

/-- The self-loop term: the projected features scaled by the self-loop weights. -/
theorem W9_v101 : W9 m ρ c (Proc.devRef .tc main_v101)
    = mulf (F := Ideal) (s := S100000x64) (φ := .f32) (Cert.ReferenceIdeal.Read.val_main_v86 (F := Ideal) a0 a1 a2 a3 a4 a5 a7) (Cert.ReferenceIdeal.Read.val_main_v106 (F := Ideal) a7) := by
  have h1 := W8_v80 m ρ c
  have h2 := W8_v31 m ρ c
  show StableHlo.after hostOps5 (W8 m ρ c) (Proc.devRef .tc main_v101) = _
  after_results_simp
  rw [h1, h2]
  rfl

/-- The aggregated messages: the reference's aggregate. -/
theorem W9_v98 : W9 m ρ c (Proc.devRef .tc main_v98) = Cert.ReferenceIdeal.Read.val_main_v104 (F := Ideal) a0 a1 a2 a3 a4 a5 a7 := by
  have h1 := W8_v80 m ρ c
  have h2 := W8_v1 m ρ c
  have h3 := W8_v3 m ρ c
  have h4 := W8_v30 m ρ c
  show StableHlo.after hostOps5 (W8 m ρ c) (Proc.devRef .tc main_v98) = _
  after_results_simp
  rw [h1, h2, h3, h4]
  rfl

/-- The bias laid out as a row. -/
theorem W9_v102 : W9 m ρ c (Proc.devRef .tc main_v102) = shapeCast S1x64 a6 shapeCasts_S64_S1x64 := by
  have h1 := Carry.W8_arg6 m ρ c
  show StableHlo.after hostOps5 (W8 m ρ c) (Proc.devRef .tc main_v102) = _
  after_results_simp
  rw [h1]
  rfl

/-- The closing pass on these three arrays is the reference's last layer. -/
theorem close_eq :
    comb (n := 100000) (c := 64)
      (mulf (F := Ideal) (s := S100000x64) (φ := .f32) (Cert.ReferenceIdeal.Read.val_main_v86 (F := Ideal) a0 a1 a2 a3 a4 a5 a7) (Cert.ReferenceIdeal.Read.val_main_v106 (F := Ideal) a7))
      (Cert.ReferenceIdeal.Read.val_main_v104 (F := Ideal) a0 a1 a2 a3 a4 a5 a7) (shapeCast S1x64 a6 shapeCasts_S64_S1x64)
    = Cert.ReferenceIdeal.Read.val_main_v111 (F := Ideal) a0 a1 a2 a3 a4 a5 a6 a7 := by
  funext i
  obtain ⟨P, Q, rfl⟩ : ∃ (P : Fin 100000) (Q : Fin 64), i = ix2 P Q := ⟨i 0, i 1, eq_ix2 i⟩
  rw [comb_apply]
  unfold Cert.ReferenceIdeal.Read.val_main_v111 Cert.ReferenceIdeal.Read.val_main_v108 Cert.ReferenceIdeal.Read.val_main_v107 Cert.ReferenceIdeal.Read.val_main_v110 Cert.ReferenceIdeal.Read.val_main_v109
  exact Cert.LibGcnLayer.layer_eq _ _ _ _ _ _ _ P Q

/-- After the last closing call: the program's result is the reference's. -/
theorem W10_v103 : W10 m ρ c (Proc.devRef .tc main_v103) = Cert.ReferenceIdeal.Read.val_main_v111 (F := Ideal) a0 a1 a2 a3 a4 a5 a6 a7 := by
  refine (W10_arr m ρ c 3).trans ((Close5.final (V9 m ρ) c).trans ?_)
  show comb (n := 100000) (c := 64) (W9 m ρ c (Proc.devRef .tc main_v101)) (W9 m ρ c (Proc.devRef .tc main_v98))
    (W9 m ρ c (Proc.devRef .tc main_v102)) = _
  rw [W9_v101, W9_v98, W9_v102]
  exact close_eq m c

end Cert.KernelIdeal.Layer3

end
-- ==== Proof.lean ====
/-
  A three-layer graph convolution over 100000 nodes and 1600000 edges: the kernel program against the reference.

  Both programs first compute, from the edge list alone, the weight of every edge and the self-loop weight of every
  node (in-degree plus one, inverse square root, products at the two endpoints), by the same host operations. Each layer
  then projects the node features by a weight matrix, gathers the projected rows at the edge sources, scales them by the
  edge weights, scatter-adds them at the edge targets, adds the self-loop weight times the projected row and the bias,
  and (in the first two layers) takes the maximum with zero.

  The kernel program does the projection and the closing sum in two tiled kernel calls per layer, twenty blocks of 5000
  rows each. At the extended reals:
    * a projection call leaves the product of its two operand arrays (every row lies in exactly one block; the narrowing
      of the operands before the product is the identity), and that product is the reference's `dot_general`: both are
      the sum over the contracted coordinate of the products of entries;
    * the gathers, the scaling by the edge weights and the scatter-add are the reference's own operations on equal
      operands, so they are never opened;
    * a closing call leaves `(h · s + agg) + b` where the reference has `(agg + s · h) + b`: equal at every extended real,
      infinite ones included, because sum and product are commutative there. No finiteness of the inputs is used.
  So, boundary by boundary through the kernel program's ten segments, each buffer a later segment reads holds the
  reference's stage of the same arguments, and the last closing call leaves the reference's result.

  The three frames are the generated ones (the reference's is its generated run with the result dropped); the
  idealization rewrote nothing, so there is nothing to preserve.
-/
import proofs.«124498_j67946382623222_1_alg».proof.Defs
import proofs.«124498_j67946382623222_1_alg».proof.Proof.Gen.Kernel
import proofs.«124498_j67946382623222_1_alg».proof.Proof.Gen.Kernel.Frame
import proofs.«124498_j67946382623222_1_alg».proof.Proof.Gen.KernelIdeal
import proofs.«124498_j67946382623222_1_alg».proof.Proof.Gen.KernelIdeal.Frame
import proofs.«124498_j67946382623222_1_alg».proof.Proof.Gen.ReferenceIdeal
import proofs.«124498_j67946382623222_1_alg».proof.Proof.Gen.Pre_finite_inputs
import proofs.«124498_j67946382623222_1_alg».proof.Proof.Gen.ReferenceIdeal.Run
import proofs.«124498_j67946382623222_1_alg».proof.Proof.Gen.ReferenceIdeal.Read
import proofs.«124498_j67946382623222_1_alg».proof.Proof.KernelRun
import proofs.«124498_j67946382623222_1_alg».proof.Proof.Layer3
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's last stage of the (agreeing) arguments in their result buffers. -/
theorem algebraic : Cert.algebraic_KernelIdeal_ReferenceIdeal := by
  intro m ρ m' ρ' _ hagree
  refine ⟨fun c => Cert.ReferenceIdeal.Read.val_main_v111 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Layer3.W10_v103 m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v111_eq]
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
